-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S1x8192 : Shape := ⟨2, ![1, 8192]⟩
abbrev S1x512 : Shape := ⟨2, ![1, 512]⟩
abbrev S512x1 : Shape := ⟨2, ![512, 1]⟩
abbrev S512x128 : Shape := ⟨2, ![512, 128]⟩
abbrev S2048x128 : Shape := ⟨2, ![2048, 128]⟩
abbrev S512x2048 : Shape := ⟨2, ![512, 2048]⟩
abbrev S1x2048 : Shape := ⟨2, ![1, 2048]⟩
abbrev S512 : Shape := ⟨1, ![512]⟩

abbrev nBuf : Space → Nat
  | .hbm => 14
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S1x8192, .i32⟩
  | .hbm, ⟨9, _⟩ => ⟨S1x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x128, .bf16⟩
  | .local _ .vmem, ⟨1, _⟩ => ⟨S1x8192, .f32⟩
  | .local _ .vmem, ⟨2, _⟩ => ⟨S1x8192, .i32⟩
  | .local _ .vmem, ⟨3, _⟩ => ⟨S1x512, .f32⟩
  | .local _ .vmem, ⟨4, _⟩ => ⟨S1x512, .f32⟩
  | .local _ .vmem, ⟨5, _⟩ => ⟨S512x1, .f32⟩
  | .local _ .vmem, ⟨6, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c2048_i32 : BitVec 32 := 2048#32
  let v2 : BitVec 32 := Scalar.muli arg1 c2048_i32
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v7 : Index := Scalar.indexCast v1
  let c0 : Index := 0#32
  ![v7.toNat, 0]
def k0_off2 (i : grid0.Coords) : Fin 2 → Nat :=
  let arg1 : BitVec 32 := BitVec.ofNat 32 (i 1).val
  let c2048_i32 : BitVec 32 := 2048#32
  let v2 : BitVec 32 := Scalar.muli arg1 c2048_i32
  let v3 : BitVec 32 := v2
  let v10 : Index := Scalar.indexCast v3
  let c0_1 : Index := 0#32
  ![v10.toNat, 0]
def k0_off3 (i : grid0.Coords) : Fin 2 → Nat :=
  let c0_2 : Index := 0#32
  let arg0 : BitVec 32 := BitVec.ofNat 32 (i 0).val
  let c512_i32 : BitVec 32 := 512#32
  let v0 : BitVec 32 := Scalar.muli arg0 c512_i32
  let v1 : BitVec 32 := v0
  let v14 : Index := Scalar.indexCast v1
  ![0, v14.toNat]
def k0_off4 (i : grid0.Coords) : Fin 2 → Nat :=
  let c0_3 : Index := 0#32
  let arg1 : BitVec 32 := BitVec.ofNat 32 (i 1).val
  let c2048_i32 : BitVec 32 := 2048#32
  let v2 : BitVec 32 := Scalar.muli arg1 c2048_i32
  let v3 : BitVec 32 := v2
  let v18 : Index := Scalar.indexCast v3
  ![0, v18.toNat]
def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_19 : BitVec 32 := 0#32
  let v57 : BitVec 1 := Scalar.cmpi .ne v56 c0_i32_19
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x128 : 0 < S512x128.numel
  shapeCasts_S512x128_S512x128 : S512x128.ShapeCasts S512x128
  h_S2048x128 : 0 < S2048x128.numel
  shapeCasts_S2048x128_S2048x128 : S2048x128.ShapeCasts S2048x128
  h_S1x512 : 0 < S1x512.numel
  shapeCasts_S1x512_S1x512 : S1x512.ShapeCasts S1x512
  transposes_S1x512_p1_0_S512x1 : S1x512.Transposes [1, 0] S512x1
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  reducesTo_S1x8192_S_d0_1 : S1x8192.ReducesTo [0, 1] S_
  dot_S512x128_S2048x128_S512x2048_1_1_0_0_n_n_wf : DotDims.WF S512x128 S2048x128 S512x2048 [1] [1] [0] [0] [] []
  hrank0 : 0 < grid0.rank
  k0_mult1_dvd : ∀ i : grid0.Coords, 512 ∣ (k0_mult1 i).toNat
  k0_mult2_dvd : ∀ i : grid0.Coords, 2048 ∣ (k0_mult2 i).toNat
  k0_off1_inb : ∀ i : grid0.Coords, ∀ a, (k0_off1 i) a + S512x128.size a ≤ S8192x128.size a
  k0_off2_inb : ∀ i : grid0.Coords, ∀ a, (k0_off2 i) a + S2048x128.size a ≤ S8192x128.size a
  k0_off3_inb : ∀ i : grid0.Coords, ∀ a, (k0_off3 i) a + S1x512.size a ≤ S1x8192.size a
  k0_off4_inb : ∀ i : grid0.Coords, ∀ a, (k0_off4 i) a + S1x2048.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The triplet margin loss with hard mining, as functions of the argument arrays over the extended reals.

  For points `x r` (rows of an 8192 × 128 array) and labels `t r`, the squared distance is expanded through the Gram
  matrix: `d2 r c = (|x r|² + |x c|²) - 2 · ⟨x r, x c⟩`.  Row `r`'s hardest positive is the largest distance to a
  point with the same label, its hardest negative the smallest distance to a point with another label; the loss of
  the row is `max (ap - an + margin) 0`, and the result is the mean over the rows.

  The distance is `clampRoot d2 = sqrt (max d2 eps)`.  Two orders of evaluation are stated here: mining the squared
  distances and taking `clampRoot` of the two winners (`apK`, `anK`), and taking `clampRoot` of every entry before
  mining (`apR`, `anR`).  That they agree is the content of the module Mining.
-/
import Idealize.ShloMosaic.PureOps.Ideal
import Idealize.ShloMosaic.Lib.ValueIdx

noncomputable section

namespace Cert.Triplet

open Idealize.ShloMosaic Idealize.ShloMosaic.ValueIdx

/-- The points: an 8192 × 128 array of extended reals. -/
abbrev Pts := FVec Ideal ⟨2, ![8192, 128]⟩ .f32
/-- The labels: 8192 words. -/
abbrev Lbl := IVec ⟨1, ![8192]⟩ 32

/-- The constants, each the extended real its word denotes. -/
def zero : EReal := Ideal.ofBits .f32 0x00000000#32
def two : EReal := Ideal.ofBits .f32 0x40000000#32
def eps : EReal := Ideal.ofBits .f32 0x2B8CBCCC#32
def margin : EReal := Ideal.ofBits .f32 0x3E99999A#32
def negInf : EReal := Ideal.ofBits .f32 0xFF800000#32
def posInf : EReal := Ideal.ofBits .f32 0x7F800000#32
def count : EReal := Ideal.ofBits .f32 0x46000000#32

/-- The squared norm of row `r`. -/
def sqn (x : Pts) (r : Fin 8192) : EReal := zero + ∑ k : Fin 128, x (ix2 r k) * x (ix2 r k)

/-- The inner product of rows `r` and `c`. -/
def gram (x : Pts) (r c : Fin 8192) : EReal := ∑ k : Fin 128, x (ix2 r k) * x (ix2 c k)

/-- The squared distance between rows `r` and `c`, by the Gram expansion. -/
def d2 (x : Pts) (r c : Fin 8192) : EReal := (sqn x r + sqn x c) - two * gram x r c

/-- Rows `r` and `c` carry the same label. -/
def same (t : Lbl) (r c : Fin 8192) : Prop := t (ix1 r) = t (ix1 c)

instance (t : Lbl) (r c : Fin 8192) : Decidable (same t r c) := by unfold same; infer_instance

/-- A squared distance floored at `eps`, then its root. -/
def clampRoot (v : EReal) : EReal := Ideal.sqrt (max v eps)

/-- One row's loss from its hardest positive and hardest negative distances. -/
def loss (ap an : EReal) : EReal := max ((ap - an) + margin) zero

/-- Hardest positive, mined on squared distances: the root is taken of the winner. -/
def apK (x : Pts) (t : Lbl) (r : Fin 8192) : EReal :=
  clampRoot ((Finset.univ : Finset (Fin 8192)).fold max negInf (fun c => if same t r c then d2 x r c else negInf))

/-- Hardest negative, mined on squared distances. -/
def anK (x : Pts) (t : Lbl) (r : Fin 8192) : EReal :=
  clampRoot ((Finset.univ : Finset (Fin 8192)).fold min posInf (fun c => if same t r c then posInf else d2 x r c))

/-- Hardest positive, mined on distances: the root is taken of every entry. -/
def apR (x : Pts) (t : Lbl) (r : Fin 8192) : EReal :=
  (Finset.univ : Finset (Fin 8192)).fold max negInf (fun c => if same t r c then clampRoot (d2 x r c) else negInf)

/-- Hardest negative, mined on distances. -/
def anR (x : Pts) (t : Lbl) (r : Fin 8192) : EReal :=
  (Finset.univ : Finset (Fin 8192)).fold min posInf (fun c => if same t r c then posInf else clampRoot (d2 x r c))

/-- The mean of the rows' losses. -/
def meanLoss (L : Fin 8192 → EReal) : EReal := Ideal.div (zero + ∑ r : Fin 8192, L r) count

/-- The result when the squared distances are mined. -/
def resultK (x : Pts) (t : Lbl) : EReal := meanLoss fun r => loss (apK x t r) (anK x t r)

/-- The result when the distances are mined. -/
def resultR (x : Pts) (t : Lbl) : EReal := meanLoss fun r => loss (apR x t r) (anR x t r)

end Cert.Triplet

end
-- ==== Proof.Mining.lean ====
/-
  Hard mining in the squared-distance domain.  `clampRoot v = sqrt (max v eps)` is monotone on the extended reals,
  so it commutes with a finite maximum and a finite minimum.  The two sentinels need a word each: `clampRoot ⊤ = ⊤`,
  so the masked entries of the minimum stay `⊤`; `clampRoot ⊥ = sqrt eps` is not `⊥`, but every `clampRoot v` is at
  least `sqrt eps` and a row always carries its own label, so the maximum over the row is attained at an unmasked
  entry and the masked ones do not matter.
-/
import proofs.«173928_j86414741995528_2_alg».proof.Proof.Spec
import Idealize.ShloMosaic.PureOps.Ideal.Laws

noncomputable section

namespace Cert.Triplet

open Idealize.ShloMosaic Idealize.ShloMosaic.ValueIdx

/-- The word of minus infinity denotes the bottom element. -/
private theorem negInf_eq : negInf = ⊥ := by simp [negInf, Ideal.ofBits, Ideal.ieee]

/-- The word of plus infinity denotes the top element. -/
private theorem posInf_eq : posInf = ⊤ := by simp [posInf, Ideal.ofBits, Ideal.ieee]

/-- The root is monotone on the extended reals: negative arguments and `⊥` go to `⊥`, `⊤` to `⊤`, and the
    real root is monotone in between. -/
private theorem sqrt_mono : Monotone Ideal.sqrt := by
  intro a b hab
  induction a using EReal.rec with
  | bot => simp
  | top =>
    have hb : b = ⊤ := top_le_iff.mp hab
    subst hb
    exact le_rfl
  | coe r =>
    induction b using EReal.rec with
    | bot => exact absurd hab (by simp)
    | top => simp
    | coe s =>
      have hrs : r ≤ s := EReal.coe_le_coe_iff.mp hab
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

/-- Flooring then taking the root is monotone. -/
private theorem clampRoot_mono : Monotone clampRoot := by
  intro a b hab
  exact sqrt_mono (max_le_max hab le_rfl)

/-- The top element is fixed. -/
private theorem clampRoot_top : clampRoot ⊤ = ⊤ := by
  simp [clampRoot]

/-- A monotone map commutes with a finite minimum. -/
private theorem mono_fold_min {ι : Type} (s : Finset ι) (f : EReal → EReal) (hf : Monotone f) (b : EReal)
    (g : ι → EReal) : f (s.fold min b g) = s.fold min (f b) (fun c => f (g c)) :=
  (Finset.fold_hom (op := min) (op' := min) (m := f) (fun x y => hf.map_min)).symm

/-- A monotone map commutes with a finite maximum. -/
private theorem mono_fold_max {ι : Type} (s : Finset ι) (f : EReal → EReal) (hf : Monotone f) (b : EReal)
    (g : ι → EReal) : f (s.fold max b g) = s.fold max (f b) (fun c => f (g c)) :=
  (Finset.fold_hom (op := max) (op' := max) (m := f) (fun x y => hf.map_max)).symm

/-- When some unmasked entry is present and every unmasked value is at least `lo`, a maximum whose start and masked
    entries are `lo` equals the one whose start and masked entries are `⊥`: both are the maximum of the unmasked
    values. -/
private theorem fold_max_mask {ι : Type} (s : Finset ι) (p : ι → Prop) [DecidablePred p] (h : ι → EReal) (lo : EReal)
    (c₀ : ι) (hc₀ : c₀ ∈ s) (hp : p c₀) (hlo : ∀ c, lo ≤ h c) :
    s.fold max lo (fun c => if p c then h c else lo) = s.fold max ⊥ (fun c => if p c then h c else ⊥) := by
  have hloR : lo ≤ s.fold max ⊥ (fun c => if p c then h c else ⊥) :=
    (Finset.le_fold_max _).mpr (Or.inr ⟨c₀, hc₀, by simpa [hp] using hlo c₀⟩)
  apply le_antisymm
  · refine (Finset.fold_max_le _).mpr ⟨hloR, fun c hc => ?_⟩
    by_cases hpc : p c
    · exact (Finset.le_fold_max _).mpr (Or.inr ⟨c, hc, by simp [hpc]⟩)
    · simpa [hpc] using hloR
  · refine (Finset.fold_max_le _).mpr ⟨bot_le, fun c hc => ?_⟩
    by_cases hpc : p c
    · exact (Finset.le_fold_max _).mpr (Or.inr ⟨c, hc, by simp [hpc]⟩)
    · simp [hpc]

/-- The hardest positive is the same whether the root is taken before or after the maximum. -/
theorem apK_eq_apR (x : Pts) (t : Lbl) (r : Fin 8192) : apK x t r = apR x t r := by
  unfold apK apR
  rw [negInf_eq, mono_fold_max _ _ clampRoot_mono]
  simp only [apply_ite clampRoot]
  exact fold_max_mask Finset.univ (fun c => same t r c) (fun c => clampRoot (d2 x r c)) (clampRoot ⊥) r
    (Finset.mem_univ r) rfl (fun c => clampRoot_mono bot_le)

/-- The hardest negative is the same whether the root is taken before or after the minimum. -/
theorem anK_eq_anR (x : Pts) (t : Lbl) (r : Fin 8192) : anK x t r = anR x t r := by
  unfold anK anR
  rw [posInf_eq, mono_fold_min _ _ clampRoot_mono]
  simp only [apply_ite clampRoot, clampRoot_top]

/-- The two orders of evaluation give one result. -/
theorem resultK_eq_resultR (x : Pts) (t : Lbl) : resultK x t = resultR x t := by
  unfold resultK resultR
  exact congrArg meanLoss (funext fun r => by rw [apK_eq_apR, anK_eq_anR])

end Cert.Triplet

end
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«173928_j86414741995528_2_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.RefSide.lean ====
/-
  The reference program's result, read one operation at a time, is the mean triplet loss with the distances mined
  (`Cert.Triplet.resultR`): squared norms by a row sum, the Gram matrix by a product with the transpose, the clamped
  root of every entry, a masked row maximum and a masked row minimum, the margin, the positive part, the mean.
-/
import proofs.«173928_j86414741995528_2_alg».proof.Proof.Spec
import proofs.«173928_j86414741995528_2_alg».proof.Proof.Gen.ReferenceIdeal.Read
import proofs.«173928_j86414741995528_2_alg».proof.Proof.LibHostSoftmax
import proofs.«173928_j86414741995528_2_alg».proof.Proof.LibMinReduce

noncomputable section

namespace Cert.ReferenceIdeal.RefValue

open Cert.ReferenceIdeal Cert.ReferenceIdeal.Gen Cert.ReferenceIdeal.Read
open Idealize.ShloMosaic Idealize.ShloMosaic.ValueIdx

open Cert.Triplet

/-! ## The composed index functions at coordinates -/

theorem idx_v1 (r : Fin 8192) (k : Fin 128) : idx_main_v1 (ix1 r) k = ix2 r k :=
  funext fun a => Fin.ext (by match a with | ⟨0, _⟩ => rfl | ⟨1, _⟩ => rfl)

theorem idx_v4 (r c : Fin 8192) : idx_main_v2 (idx_main_v4 (ix2 r c)) = ix1 r :=
  funext fun a => Fin.ext (by match a with | ⟨0, _⟩ => rfl)

theorem idx_v5 (r c : Fin 8192) : idx_main_v3 (idx_main_v5 (ix2 r c)) = ix1 c :=
  funext fun a => Fin.ext (by match a with | ⟨0, _⟩ => rfl)

theorem lidx_v8 (r c : Fin 8192) (k : Fin 128) : lidx_main_v8 (ix2 r c) k = ix2 r k :=
  funext fun a => Fin.ext (by match a with | ⟨0, _⟩ => rfl | ⟨1, _⟩ => rfl)

theorem ridx_v8 (r c : Fin 8192) (k : Fin 128) : idx_main_v7 (ridx_main_v8 (ix2 r c) k) = ix2 c k :=
  funext fun a => Fin.ext (by match a with | ⟨0, _⟩ => rfl | ⟨1, _⟩ => rfl)

theorem idx_v17 (r c : Fin 8192) : idx_main_v15 (idx_main_v17 (ix2 r c)) = ix1 r :=
  funext fun a => Fin.ext (by match a with | ⟨0, _⟩ => rfl)

theorem idx_v18 (r c : Fin 8192) : idx_main_v16 (idx_main_v18 (ix2 r c)) = ix1 c :=
  funext fun a => Fin.ext (by match a with | ⟨0, _⟩ => rfl)

/-! ## The squared norms, the Gram matrix, the squared distance and its clamped root -/

theorem v1_at (x0 : (⟨S8192x128, .f32⟩ : BufTy).Contents (Elt Ideal)) (r : Fin 8192) :
    val_main_v1 (F := Ideal) x0 (ix1 r) = sqn x0 r := by
  rw [val_main_v1_apply]
  refine congrArg₂ (· + ·) rfl (Finset.sum_congr rfl fun k _ => ?_)
  rw [val_main_v0_apply, idx_v1]; rfl

theorem v8_at (x0 : (⟨S8192x128, .f32⟩ : BufTy).Contents (Elt Ideal)) (r c : Fin 8192) :
    val_main_v8 (F := Ideal) x0 (ix2 r c) = gram x0 r c := by
  rw [val_main_v8_apply]
  refine Finset.sum_congr rfl fun k _ => ?_
  rw [val_main_v7_apply, lidx_v8, ridx_v8]

theorem v11_at (x0 : (⟨S8192x128, .f32⟩ : BufTy).Contents (Elt Ideal)) (r c : Fin 8192) :
    val_main_v11 (F := Ideal) x0 (ix2 r c) = d2 x0 r c := by
  rw [val_main_v11_apply, val_main_v6_apply, val_main_v10_apply, val_main_v4_apply, val_main_v5_apply,
    val_main_v2_apply, val_main_v3_apply, idx_v4, idx_v5, v1_at, v1_at, v8_at, val_main_v9_apply]
  rfl

theorem v14_at (x0 : (⟨S8192x128, .f32⟩ : BufTy).Contents (Elt Ideal)) (r c : Fin 8192) :
    val_main_v14 (F := Ideal) x0 (ix2 r c) = clampRoot (d2 x0 r c) := by
  rw [val_main_v14_apply, val_main_v13_apply, v11_at, val_main_v12_apply]
  rfl

/-! ## The label comparison and the two masked matrices -/

/-- A select on the word of an equality test is the conditional on the equality. -/
theorem select_cmpi_eq {α : Type} {w : Nat} (a b : BitVec w) (u v : α) :
    Scalar.select (IntOp.cmpi .eq a b) u v = if a = b then u else v :=
  if_congr IntOp.cmpi_eq rfl rfl

theorem v17_at (x1 : (⟨S8192, .i32⟩ : BufTy).Contents (Elt Ideal)) (r c : Fin 8192) :
    val_main_v17 (F := Ideal) x1 (ix2 r c) = x1 (ix1 r) := by
  rw [val_main_v17_apply, val_main_v15_apply, idx_v17]

theorem v18_at (x1 : (⟨S8192, .i32⟩ : BufTy).Contents (Elt Ideal)) (r c : Fin 8192) :
    val_main_v18 (F := Ideal) x1 (ix2 r c) = x1 (ix1 c) := by
  rw [val_main_v18_apply, val_main_v16_apply, idx_v18]

theorem v20_at (x0 : (⟨S8192x128, .f32⟩ : BufTy).Contents (Elt Ideal)) (x1 : (⟨S8192, .i32⟩ : BufTy).Contents (Elt Ideal))
    (r c : Fin 8192) :
    val_main_v20 (F := Ideal) x0 x1 (ix2 r c) = if same x1 r c then clampRoot (d2 x0 r c) else negInf := by
  rw [val_main_v20_apply, val_main_v19_apply, v17_at, v18_at, v14_at, val_main_call0_v1_apply, select_cmpi_eq]
  rfl

theorem v22_at (x0 : (⟨S8192x128, .f32⟩ : BufTy).Contents (Elt Ideal)) (x1 : (⟨S8192, .i32⟩ : BufTy).Contents (Elt Ideal))
    (r c : Fin 8192) :
    val_main_v22 (F := Ideal) x0 x1 (ix2 r c) = if same x1 r c then posInf else clampRoot (d2 x0 r c) := by
  rw [val_main_v22_apply, val_main_v19_apply, v17_at, v18_at, v14_at, val_main_call1_v1_apply, select_cmpi_eq]
  rfl

/-! ## The two row reductions -/

/-- The host's minimum reduction along the rows, read at row p: the fold of min from the initial value over the row. -/
theorem rowMin_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.minimumf x init h' hu (ix1 p)
      = (Finset.univ : Finset (Fin b)).fold min (init (Shape.Idx.first hu)) (fun c => x (ix2 p c)) := by
  rw [Host.reduce_eq_fold_single FloatOps.minimumf x init h' h hu]
  exact congrArg (fun f => Finset.fold min (init (Shape.Idx.first hu)) f (Finset.univ : Finset (Fin b)))
    (funext fun c => congrArg x (Cert.MinReduce.lift_cols h p c))

theorem v21_at (x0 : (⟨S8192x128, .f32⟩ : BufTy).Contents (Elt Ideal)) (x1 : (⟨S8192, .i32⟩ : BufTy).Contents (Elt Ideal))
    (r : Fin 8192) :
    val_main_v21 (F := Ideal) x0 x1 (ix1 r) = apR x0 x1 r := by
  unfold val_main_v21
  refine (Cert.HostSoftmax.rowMax_apply (a := 8192) (b := 8192) (val_main_v20 (F := Ideal) x0 x1) (val_main_cst_3 (F := Ideal))
    reducesTo_S8192x8192_S8192_d1 (by decide) h_S_ r).trans ?_
  exact congrArg (fun f => Finset.fold max negInf f (Finset.univ : Finset (Fin 8192))) (funext fun c => v20_at x0 x1 r c)

theorem v23_at (x0 : (⟨S8192x128, .f32⟩ : BufTy).Contents (Elt Ideal)) (x1 : (⟨S8192, .i32⟩ : BufTy).Contents (Elt Ideal))
    (r : Fin 8192) :
    val_main_v23 (F := Ideal) x0 x1 (ix1 r) = anR x0 x1 r := by
  unfold val_main_v23
  refine (rowMin_apply (a := 8192) (b := 8192) (val_main_v22 (F := Ideal) x0 x1) (val_main_cst_5 (F := Ideal))
    reducesTo_S8192x8192_S8192_d1 (by decide) h_S_ r).trans ?_
  exact congrArg (fun f => Finset.fold min posInf f (Finset.univ : Finset (Fin 8192))) (funext fun c => v22_at x0 x1 r c)

/-! ## The row's loss, the sum over the rows, the mean -/

theorem v27_at (x0 : (⟨S8192x128, .f32⟩ : BufTy).Contents (Elt Ideal)) (x1 : (⟨S8192, .i32⟩ : BufTy).Contents (Elt Ideal))
    (r : Fin 8192) :
    val_main_v27 (F := Ideal) x0 x1 (ix1 r) = loss (apR x0 x1 r) (anR x0 x1 r) := by
  rw [val_main_v27_apply, val_main_v26_apply, val_main_v24_apply, v21_at, v23_at, val_main_v25_apply,
    val_main_call2_v0_apply]
  rfl

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the mean loss with the distances mined. -/
theorem result_eq (x0 : (⟨S8192x128, .f32⟩ : BufTy).Contents (Elt Ideal)) (x1 : (⟨S8192, .i32⟩ : BufTy).Contents (Elt Ideal))
    (i : S_.Idx) :
    val_main_v29 (F := Ideal) x0 x1 i = Cert.Triplet.resultR x0 x1 := by
  rw [val_main_v29_apply, val_main_v28_apply, sum_idx1]
  refine congrArg₂ Ideal.div (congrArg₂ (· + ·) rfl (Finset.sum_congr rfl fun r _ => ?_)) rfl
  exact v27_at x0 x1 r

end Cert.ReferenceIdeal.RefValue

end
-- ==== Proof.Partial.lean ====
/-
  A maximum (minimum) over the 8192 columns taken 2048 columns at a time.  `partMax g n` is the fold of max from -inf
  over the columns below `n`: it is -inf at `n = 0`, the whole row's fold at `n = 8192`, and passing from
  `2048 · J` to `2048 · (J + 1)` takes the maximum with the fold over the `J`-th stretch of 2048 columns — a fold of
  an idempotent, commutative, associative operation does not depend on how its index set is cut up.
-/
import proofs.«173928_j86414741995528_2_alg».proof.Proof.Spec

noncomputable section

namespace Cert.Triplet

/-- The maximum of `g` over the columns below `n`, from -inf. -/
def partMax (g : Fin 8192 → EReal) (n : ℕ) : EReal :=
  ((Finset.univ : Finset (Fin 8192)).filter (fun c => c.val < n)).fold max negInf g

/-- The minimum of `g` over the columns below `n`, from +inf. -/
def partMin (g : Fin 8192 → EReal) (n : ℕ) : EReal :=
  ((Finset.univ : Finset (Fin 8192)).filter (fun c => c.val < n)).fold min posInf g

/-- The fold of max from any start value `b` over the columns below `2048 · (J + 1)` is the maximum of the fold over
    the columns below `2048 · J` and the fold over the `J`-th stretch: both sides are the least upper bound of `b` and
    the same entries. -/
theorem foldMax_step (b : EReal) (g : Fin 8192 → EReal) (J : ℕ) (hJ : J < 4) (tile : Fin 2048 → EReal)
    (htile : ∀ (q : Fin 2048) (c : Fin 8192), c.val = 2048 * J + q.val → tile q = g c) :
    ((Finset.univ : Finset (Fin 8192)).filter (fun c => c.val < 2048 * (J + 1))).fold max b g
      = max (((Finset.univ : Finset (Fin 8192)).filter (fun c => c.val < 2048 * J)).fold max b g)
          ((Finset.univ : Finset (Fin 2048)).fold max b tile) := by
  apply le_antisymm
  · -- every column below 2048 · (J + 1) is below 2048 · J or lies in the J-th stretch
    rw [Finset.fold_max_le]
    refine ⟨le_max_of_le_left ((Finset.le_fold_max _).2 (Or.inl le_rfl)), fun c hc => ?_⟩
    have hc' : c.val < 2048 * (J + 1) := (Finset.mem_filter.1 hc).2
    by_cases h : c.val < 2048 * J
    · exact le_max_of_le_left
        ((Finset.le_fold_max _).2 (Or.inr ⟨c, Finset.mem_filter.2 ⟨Finset.mem_univ _, h⟩, le_rfl⟩))
    · have hq : c.val - 2048 * J < 2048 := by omega
      have e : tile ⟨c.val - 2048 * J, hq⟩ = g c :=
        htile ⟨c.val - 2048 * J, hq⟩ c (by show c.val = 2048 * J + (c.val - 2048 * J); omega)
      exact le_max_of_le_right
        ((Finset.le_fold_max _).2 (Or.inr ⟨⟨c.val - 2048 * J, hq⟩, Finset.mem_univ _, e.ge⟩))
  · refine max_le ?_ ?_
    · -- the columns below 2048 · J are below 2048 · (J + 1)
      rw [Finset.fold_max_le]
      refine ⟨(Finset.le_fold_max _).2 (Or.inl le_rfl), fun c hc => ?_⟩
      have hc' : c.val < 2048 * J := (Finset.mem_filter.1 hc).2
      exact (Finset.le_fold_max _).2
        (Or.inr ⟨c, Finset.mem_filter.2 ⟨Finset.mem_univ _, (by omega : c.val < 2048 * (J + 1))⟩, le_rfl⟩)
    · -- entry q of the stretch is column 2048 · J + q, which is below 2048 · (J + 1)
      rw [Finset.fold_max_le]
      refine ⟨(Finset.le_fold_max _).2 (Or.inl le_rfl), fun q _ => ?_⟩
      have hq := q.isLt
      have hlt : 2048 * J + q.val < 8192 := by omega
      have e : tile q = g ⟨2048 * J + q.val, hlt⟩ := htile q ⟨2048 * J + q.val, hlt⟩ rfl
      exact (Finset.le_fold_max _).2
        (Or.inr ⟨⟨2048 * J + q.val, hlt⟩,
          Finset.mem_filter.2 ⟨Finset.mem_univ _, (by show 2048 * J + q.val < 2048 * (J + 1); omega)⟩, e.le⟩)

/-- The same for the fold of min: both sides are the greatest lower bound of `b` and the same entries. -/
theorem foldMin_step (b : EReal) (g : Fin 8192 → EReal) (J : ℕ) (hJ : J < 4) (tile : Fin 2048 → EReal)
    (htile : ∀ (q : Fin 2048) (c : Fin 8192), c.val = 2048 * J + q.val → tile q = g c) :
    ((Finset.univ : Finset (Fin 8192)).filter (fun c => c.val < 2048 * (J + 1))).fold min b g
      = min (((Finset.univ : Finset (Fin 8192)).filter (fun c => c.val < 2048 * J)).fold min b g)
          ((Finset.univ : Finset (Fin 2048)).fold min b tile) := by
  apply le_antisymm
  · refine le_min ?_ ?_
    · -- the columns below 2048 · J are below 2048 · (J + 1)
      rw [Finset.le_fold_min]
      refine ⟨(Finset.fold_min_le _).2 (Or.inl le_rfl), fun c hc => ?_⟩
      have hc' : c.val < 2048 * J := (Finset.mem_filter.1 hc).2
      exact (Finset.fold_min_le _).2
        (Or.inr ⟨c, Finset.mem_filter.2 ⟨Finset.mem_univ _, (by omega : c.val < 2048 * (J + 1))⟩, le_rfl⟩)
    · -- entry q of the stretch is column 2048 · J + q, which is below 2048 · (J + 1)
      rw [Finset.le_fold_min]
      refine ⟨(Finset.fold_min_le _).2 (Or.inl le_rfl), fun q _ => ?_⟩
      have hq := q.isLt
      have hlt : 2048 * J + q.val < 8192 := by omega
      have e : tile q = g ⟨2048 * J + q.val, hlt⟩ := htile q ⟨2048 * J + q.val, hlt⟩ rfl
      exact (Finset.fold_min_le _).2
        (Or.inr ⟨⟨2048 * J + q.val, hlt⟩,
          Finset.mem_filter.2 ⟨Finset.mem_univ _, (by show 2048 * J + q.val < 2048 * (J + 1); omega)⟩, e.ge⟩)
  · -- every column below 2048 · (J + 1) is below 2048 · J or lies in the J-th stretch
    rw [Finset.le_fold_min]
    refine ⟨min_le_of_left_le ((Finset.fold_min_le _).2 (Or.inl le_rfl)), fun c hc => ?_⟩
    have hc' : c.val < 2048 * (J + 1) := (Finset.mem_filter.1 hc).2
    by_cases h : c.val < 2048 * J
    · exact min_le_of_left_le
        ((Finset.fold_min_le _).2 (Or.inr ⟨c, Finset.mem_filter.2 ⟨Finset.mem_univ _, h⟩, le_rfl⟩))
    · have hq : c.val - 2048 * J < 2048 := by omega
      have e : tile ⟨c.val - 2048 * J, hq⟩ = g c :=
        htile ⟨c.val - 2048 * J, hq⟩ c (by show c.val = 2048 * J + (c.val - 2048 * J); omega)
      exact min_le_of_right_le
        ((Finset.fold_min_le _).2 (Or.inr ⟨⟨c.val - 2048 * J, hq⟩, Finset.mem_univ _, e.le⟩))

theorem partMax_zero (g : Fin 8192 → EReal) : partMax g 0 = negInf := by
  -- no column is below 0
  unfold partMax
  rw [Finset.filter_false_of_mem (fun c _ => Nat.not_lt_zero _), Finset.fold_empty]

theorem partMin_zero (g : Fin 8192 → EReal) : partMin g 0 = posInf := by
  -- no column is below 0
  unfold partMin
  rw [Finset.filter_false_of_mem (fun c _ => Nat.not_lt_zero _), Finset.fold_empty]

theorem partMax_all (g : Fin 8192 → EReal) : partMax g 8192 = (Finset.univ : Finset (Fin 8192)).fold max negInf g := by
  -- every column is below 8192
  unfold partMax
  rw [Finset.filter_true_of_mem (fun c _ => c.isLt)]

theorem partMin_all (g : Fin 8192 → EReal) : partMin g 8192 = (Finset.univ : Finset (Fin 8192)).fold min posInf g := by
  -- every column is below 8192
  unfold partMin
  rw [Finset.filter_true_of_mem (fun c _ => c.isLt)]

/-- One stretch of 2048 columns: `tile q` is `g` at column `2048 · J + q`. -/
theorem partMax_step (g : Fin 8192 → EReal) (J : ℕ) (hJ : J < 4) (tile : Fin 2048 → EReal)
    (htile : ∀ (q : Fin 2048) (c : Fin 8192), c.val = 2048 * J + q.val → tile q = g c) :
    partMax g (2048 * (J + 1)) = max (partMax g (2048 * J)) ((Finset.univ : Finset (Fin 2048)).fold max negInf tile) := by
  unfold partMax
  exact foldMax_step negInf g J hJ tile htile

theorem partMin_step (g : Fin 8192 → EReal) (J : ℕ) (hJ : J < 4) (tile : Fin 2048 → EReal)
    (htile : ∀ (q : Fin 2048) (c : Fin 8192), c.val = 2048 * J + q.val → tile q = g c) :
    partMin g (2048 * (J + 1)) = min (partMin g (2048 * J)) ((Finset.univ : Finset (Fin 2048)).fold min posInf tile) := by
  unfold partMin
  exact foldMin_step posInf g J hJ tile htile

end Cert.Triplet

end
-- ==== Proof.Loads.lean ====
/-
  The six blocks one grid point loads, and each read at coordinates.  At row tile `i 0` and column tile `i 1` the
  body takes rows `512 · (i 0) + p` of the points as its queries and rows `2048 · (i 1) + q` as its keys, and the
  same stretches of the row of squared norms and of the row of labels.
-/
import proofs.«173928_j86414741995528_2_alg».proof.Proof.Gen.KernelIdeal
import Idealize.ShloMosaic.Lib.Pipeline.Value
import Idealize.ShloMosaic.Lib.ValueIdx

noncomputable section

namespace Cert.KernelIdeal.Pieces

open Cert.KernelIdeal Cert.KernelIdeal.Gen
open Idealize.ShloMosaic Idealize.ShloMosaic.ValueIdx

variable {F : FTy → Type} [FloatOps F]

/-- The 512 query rows of the points at row tile `i 0`. -/
def ldQ (i : grid0.Coords) (x0 : Vec F S8192x128 .bf16) : Vec F S512x128 .bf16 :=
  View.ld x0 (Rect.unit (s := S8192x128) (k0_off1 i) S512x128.size (Gen.k0_off1_inb i))
/-- The 2048 key rows of the points at column tile `i 1`. -/
def ldK (i : grid0.Coords) (x0 : Vec F S8192x128 .bf16) : Vec F S2048x128 .bf16 :=
  View.ld x0 (Rect.unit (s := S8192x128) (k0_off2 i) S2048x128.size (Gen.k0_off2_inb i))
/-- The query rows' squared norms. -/
def ldSqQ (i : grid0.Coords) (x1 : Vec F S1x8192 .f32) : Vec F S1x512 .f32 :=
  View.ld x1 (Rect.unit (s := S1x8192) (k0_off3 i) S1x512.size (Gen.k0_off3_inb i))
/-- The key rows' squared norms. -/
def ldSqK (i : grid0.Coords) (x1 : Vec F S1x8192 .f32) : Vec F S1x2048 .f32 :=
  View.ld x1 (Rect.unit (s := S1x8192) (k0_off4 i) S1x2048.size (Gen.k0_off4_inb i))
/-- The query rows' labels. -/
def ldTgQ (i : grid0.Coords) (x2 : Vec F S1x8192 .i32) : Vec F S1x512 .i32 :=
  View.ld x2 (Rect.unit (s := S1x8192) (k0_off3 i) S1x512.size (Gen.k0_off3_inb i))
/-- The key rows' labels. -/
def ldTgK (i : grid0.Coords) (x2 : Vec F S1x8192 .i32) : Vec F S1x2048 .i32 :=
  View.ld x2 (Rect.unit (s := S1x8192) (k0_off4 i) S1x2048.size (Gen.k0_off4_inb i))

/-! ## The tile offsets as numbers

The offset words are products of a grid coordinate with the tile height, computed on 32-bit words; the coordinate is
below 16 (below 4), so the product does not wrap. -/

theorem off512 (a : ℕ) (ha : a < 16) :
    (Scalar.indexCast (Scalar.muli (BitVec.ofNat 32 a) 512#32)).toNat = 512 * a := by
  show ((BitVec.ofNat 32 a) * 512#32).toNat = 512 * a
  rw [BitVec.toNat_mul, BitVec.toNat_ofNat, BitVec.toNat_ofNat]
  omega

theorem off2048 (a : ℕ) (ha : a < 4) :
    (Scalar.indexCast (Scalar.muli (BitVec.ofNat 32 a) 2048#32)).toNat = 2048 * a := by
  show ((BitVec.ofNat 32 a) * 2048#32).toNat = 2048 * a
  rw [BitVec.toNat_mul, BitVec.toNat_ofNat, BitVec.toNat_ofNat]
  omega

theorem k0_off1_zero (i : grid0.Coords) : k0_off1 i 0 = 512 * (i 0).val := off512 _ (i 0).isLt
theorem k0_off1_one (i : grid0.Coords) : k0_off1 i 1 = 0 := rfl
theorem k0_off2_zero (i : grid0.Coords) : k0_off2 i 0 = 2048 * (i 1).val := off2048 _ (i 1).isLt
theorem k0_off2_one (i : grid0.Coords) : k0_off2 i 1 = 0 := rfl
theorem k0_off3_zero (i : grid0.Coords) : k0_off3 i 0 = 0 := rfl
theorem k0_off3_one (i : grid0.Coords) : k0_off3 i 1 = 512 * (i 0).val := off512 _ (i 0).isLt
theorem k0_off4_zero (i : grid0.Coords) : k0_off4 i 0 = 0 := rfl
theorem k0_off4_one (i : grid0.Coords) : k0_off4 i 1 = 2048 * (i 1).val := off2048 _ (i 1).isLt

/-! ## The loads at coordinates

A load through a unit-stride rectangle reads the array at offset plus coordinate on each axis. -/

/-- Query row `p` of the tile is row `512 · (i 0) + p` of the points. -/
theorem ldQ_apply (i : grid0.Coords) (x0 : Vec F S8192x128 .bf16) (p : Fin 512) (k : Fin 128) (r : Fin 8192)
    (hr : r.val = 512 * (i 0).val + p.val) : ldQ i x0 (ix2 p k) = x0 (ix2 r k) := by
  unfold ldQ
  refine congrArg x0 (funext fun a => Fin.ext ?_)
  match a with
  | ⟨0, _⟩ =>
    show k0_off1 i 0 + 1 * p.val = r.val
    rw [k0_off1_zero, hr]; omega
  | ⟨1, _⟩ =>
    show k0_off1 i 1 + 1 * k.val = k.val
    rw [k0_off1_one]; omega

/-- Key row `q` of the tile is row `2048 · (i 1) + q` of the points. -/
theorem ldK_apply (i : grid0.Coords) (x0 : Vec F S8192x128 .bf16) (q : Fin 2048) (k : Fin 128) (r : Fin 8192)
    (hr : r.val = 2048 * (i 1).val + q.val) : ldK i x0 (ix2 q k) = x0 (ix2 r k) := by
  unfold ldK
  refine congrArg x0 (funext fun a => Fin.ext ?_)
  match a with
  | ⟨0, _⟩ =>
    show k0_off2 i 0 + 1 * q.val = r.val
    rw [k0_off2_zero, hr]; omega
  | ⟨1, _⟩ =>
    show k0_off2 i 1 + 1 * k.val = k.val
    rw [k0_off2_one]; omega

theorem ldSqQ_apply (i : grid0.Coords) (x1 : Vec F S1x8192 .f32) (p : Fin 512) (r : Fin 8192)
    (hr : r.val = 512 * (i 0).val + p.val) : ldSqQ i x1 (ix2 (0 : Fin 1) p) = x1 (ix2 (0 : Fin 1) r) := by
  unfold ldSqQ
  refine congrArg x1 (funext fun a => Fin.ext ?_)
  match a with
  | ⟨0, _⟩ =>
    show k0_off3 i 0 + 1 * (0 : Fin 1).val = (0 : Fin 1).val
    rw [k0_off3_zero]; rfl
  | ⟨1, _⟩ =>
    show k0_off3 i 1 + 1 * p.val = r.val
    rw [k0_off3_one, hr]; omega

theorem ldSqK_apply (i : grid0.Coords) (x1 : Vec F S1x8192 .f32) (q : Fin 2048) (r : Fin 8192)
    (hr : r.val = 2048 * (i 1).val + q.val) : ldSqK i x1 (ix2 (0 : Fin 1) q) = x1 (ix2 (0 : Fin 1) r) := by
  unfold ldSqK
  refine congrArg x1 (funext fun a => Fin.ext ?_)
  match a with
  | ⟨0, _⟩ =>
    show k0_off4 i 0 + 1 * (0 : Fin 1).val = (0 : Fin 1).val
    rw [k0_off4_zero]; rfl
  | ⟨1, _⟩ =>
    show k0_off4 i 1 + 1 * q.val = r.val
    rw [k0_off4_one, hr]; omega

theorem ldTgQ_apply (i : grid0.Coords) (x2 : Vec F S1x8192 .i32) (p : Fin 512) (r : Fin 8192)
    (hr : r.val = 512 * (i 0).val + p.val) : ldTgQ i x2 (ix2 (0 : Fin 1) p) = x2 (ix2 (0 : Fin 1) r) := by
  unfold ldTgQ
  refine congrArg x2 (funext fun a => Fin.ext ?_)
  match a with
  | ⟨0, _⟩ =>
    show k0_off3 i 0 + 1 * (0 : Fin 1).val = (0 : Fin 1).val
    rw [k0_off3_zero]; rfl
  | ⟨1, _⟩ =>
    show k0_off3 i 1 + 1 * p.val = r.val
    rw [k0_off3_one, hr]; omega

theorem ldTgK_apply (i : grid0.Coords) (x2 : Vec F S1x8192 .i32) (q : Fin 2048) (r : Fin 8192)
    (hr : r.val = 2048 * (i 1).val + q.val) : ldTgK i x2 (ix2 (0 : Fin 1) q) = x2 (ix2 (0 : Fin 1) r) := by
  unfold ldTgK
  refine congrArg x2 (funext fun a => Fin.ext ?_)
  match a with
  | ⟨0, _⟩ =>
    show k0_off4 i 0 + 1 * (0 : Fin 1).val = (0 : Fin 1).val
    rw [k0_off4_zero]; rfl
  | ⟨1, _⟩ =>
    show k0_off4 i 1 + 1 * q.val = r.val
    rw [k0_off4_one, hr]; omega

end Cert.KernelIdeal.Pieces

end
-- ==== Proof.Pieces.lean ====
/-
  What one grid point leaves in the two running accumulators and in the output block, as pure functions of the
  blocks it loads.  The body forms the tile's masked maximum and minimum of squared distances and folds them into
  the accumulators: started from -inf / +inf at the first column tile, from the previous point's contents
  afterwards.  At the last column tile it also stores the rows' losses, computed from the accumulators it has just
  updated.  Each lemma reads the stores a case of the body makes back as one value: the last store through the whole
  block is what the block holds, and a load of the whole block after such a store reads that store's value.
-/
import proofs.«173928_j86414741995528_2_alg».proof.Proof.Gen.KernelIdeal.Frame
import proofs.«173928_j86414741995528_2_alg».proof.Proof.Loads
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem
open Cert.KernelIdeal.Facts₀ Cert.KernelIdeal.Facts

variable {F : FTy → Type} [FloatOps F]

/-- The running maximum after the point: the old contents against the tile's masked row maxima. -/
def stepMax (i : grid0.Coords) (x0 : Vec F S8192x128 .bf16) (x1 : Vec F S1x8192 .f32) (x2 : Vec F S1x8192 .i32) (old : Vec F S512x1 .f32) : Vec F S512x1 .f32 :=
  k0_pay1 (k0_pay8 (ldQ i x0) (ldK i x0) (ldSqQ i x1) (ldSqK i x1) (ldTgQ i x2) (ldTgK i x2)) old

/-- The running minimum after the point: the old contents against the tile's masked row minima. -/
def stepMin (i : grid0.Coords) (x0 : Vec F S8192x128 .bf16) (x1 : Vec F S1x8192 .f32) (x2 : Vec F S1x8192 .i32) (old : Vec F S512x1 .f32) : Vec F S512x1 .f32 :=
  k0_pay2 (k0_pay6 (ldQ i x0) (ldK i x0) (ldSqQ i x1) (ldSqK i x1)) (k0_pay7 (ldTgQ i x2) (ldTgK i x2)) (k0_pay9 (F := F)) old

private theorem hz2 : (![0, 0] : Fin 2 → Nat) = fun _ => 0 := by
  funext a; match a with | ⟨0, _⟩ => rfl | ⟨1, _⟩ => rfl

/-! ## The first column tile: both accumulators are started, then stepped -/

theorem sout_A_0 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 : Vec F S8192x128 .bf16) (x1 : Vec F S1x8192 .f32) (x2 : Vec F S1x8192 .i32) :
    sout0_A_0 c i arg2 harg2 arg3 harg3 arg4 harg4 arg5 harg5 arg6 harg6 arg7 harg7 hc0 hc1 x0 x1 x2 = stepMax i x0 x1 x2 (k0_pay4 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_run_names
  rw [View.canon_cons_unit_zero hz2, View.readCov_unit_zero _ hz2]
  simp only [View.readAt_eq_ld, harg2.read_unread, harg3.read_unread, harg4.read_unread]
  rfl

theorem sout_A_1 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 : Vec F S8192x128 .bf16) (x1 : Vec F S1x8192 .f32) (x2 : Vec F S1x8192 .i32) :
    sout0_A_1 c i arg2 harg2 arg3 harg3 arg4 harg4 arg5 harg5 arg6 harg6 arg7 harg7 hc0 hc1 x0 x1 x2 = stepMin i x0 x1 x2 (k0_pay5 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_run_names
  rw [View.canon_cons_unit_zero hz2, View.readCov_unit_zero _ hz2]
  simp only [View.readAt_eq_ld, harg2.read_unread, harg3.read_unread, harg4.read_unread]
  rfl

/-! ## A middle column tile: both accumulators step from the previous point's contents -/

theorem sout_B_0 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 : Vec F S8192x128 .bf16) (x1 : Vec F S1x8192 .f32) (x2 : Vec F S1x8192 .i32) (xs0 : Vec F S512x1 .f32) (xs1 : Vec F S512x1 .f32) :
    sout0_B_0 c i arg2 harg2 arg3 harg3 arg4 harg4 arg5 harg5 arg6 harg6 arg7 harg7 hc0 hc1 x0 x1 x2 xs0 xs1 = stepMax i x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_run_names
  rw [View.canon_unit_zero hz2]
  simp only [View.readAt_eq_ld, harg2.read_unread, harg3.read_unread, harg4.read_unread, harg6.read_unread, harg7.read_unread, View.ld_unit_zero (S := S512x1) hz2]
  rfl

theorem sout_B_1 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 : Vec F S8192x128 .bf16) (x1 : Vec F S1x8192 .f32) (x2 : Vec F S1x8192 .i32) (xs0 : Vec F S512x1 .f32) (xs1 : Vec F S512x1 .f32) :
    sout0_B_1 c i arg2 harg2 arg3 harg3 arg4 harg4 arg5 harg5 arg6 harg6 arg7 harg7 hc0 hc1 x0 x1 x2 xs0 xs1 = stepMin i x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_run_names
  rw [View.canon_unit_zero hz2]
  simp only [View.readAt_eq_ld, harg2.read_unread, harg3.read_unread, harg4.read_unread, harg6.read_unread, harg7.read_unread, View.ld_unit_zero (S := S512x1) hz2]
  rfl

/-! ## The last column tile: both accumulators step, and the rows' losses are stored from the stepped values -/

theorem sout_C_0 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S8192x128 .bf16) (x1 : Vec F S1x8192 .f32) (x2 : Vec F S1x8192 .i32) (xs0 : Vec F S512x1 .f32) (xs1 : Vec F S512x1 .f32) :
    sout0_C_0 c i arg2 harg2 arg3 harg3 arg4 harg4 arg5 harg5 arg6 harg6 arg7 harg7 hc0 hc1 x0 x1 x2 xs0 xs1 = stepMax i x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_run_names
  rw [View.canon_unit_zero hz2]
  simp only [View.readAt_eq_ld, harg2.read_unread, harg3.read_unread, harg4.read_unread, harg6.read_unread, harg7.read_unread, View.ld_unit_zero (S := S512x1) hz2]
  rfl

theorem sout_C_1 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S8192x128 .bf16) (x1 : Vec F S1x8192 .f32) (x2 : Vec F S1x8192 .i32) (xs0 : Vec F S512x1 .f32) (xs1 : Vec F S512x1 .f32) :
    sout0_C_1 c i arg2 harg2 arg3 harg3 arg4 harg4 arg5 harg5 arg6 harg6 arg7 harg7 hc0 hc1 x0 x1 x2 xs0 xs1 = stepMin i x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_run_names
  rw [View.canon_unit_zero hz2]
  simp only [View.readAt_eq_ld, harg2.read_unread, harg3.read_unread, harg4.read_unread, harg6.read_unread, harg7.read_unread, View.ld_unit_zero (S := S512x1) hz2]
  rfl

theorem out_C_3 (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S8192x128 .bf16) (x1 : Vec F S1x8192 .f32) (x2 : Vec F S1x8192 .i32) (xs0 : Vec F S512x1 .f32) (xs1 : Vec F S512x1 .f32) :
    out0_C_3 c i arg2 harg2 arg3 harg3 arg4 harg4 arg5 harg5 arg6 harg6 arg7 harg7 hc0 hc1 x0 x1 x2 xs0 xs1 = k0_pay3 (stepMax i x0 x1 x2 xs0) (stepMin i x0 x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_run_names
  rw [View.canon_unit_zero hz2, View.readCov_unit_zero _ hz2, View.readCov_unit_zero _ hz2]
  simp only [View.readAt_eq_ld, harg2.read_unread, harg3.read_unread, harg4.read_unread, harg6.read_unread, harg7.read_unread, View.ld_unit_zero (S := S512x1) hz2]
  rfl

end Cert.KernelIdeal.Pieces

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«173928_j86414741995528_2_alg».proof.Proof.LibKeepdims
import proofs.«173928_j86414741995528_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.PayloadAt.lean ====
/-
  One tile's arithmetic read entry by entry over the extended reals.  For query row `p` of the tile and key row `q`:
  the squared distance is `(|x p|² + |x q|²) - 2 · ∑ k, x p k · x q k` (the squared norms arrive as a row and are laid
  out as a column and a row; the inner products are one matrix product contracting the feature axis of both blocks),
  the mask is equality of the two labels, and the tile's masked row maximum and minimum are folds of max from -inf
  and of min from +inf over the 2048 key rows.
-/
import proofs.«173928_j86414741995528_2_alg».proof.Proof.Spec
import proofs.«173928_j86414741995528_2_alg».proof.Proof.Gen.KernelIdeal.Skeleton
import proofs.«173928_j86414741995528_2_alg».proof.Proof.LibMatmulRows
import proofs.«173928_j86414741995528_2_alg».proof.Proof.LibRowReduce
import proofs.«173928_j86414741995528_2_alg».proof.Proof.LibMinReduce
import proofs.«173928_j86414741995528_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen
open Idealize.ShloMosaic Idealize.ShloMosaic.ValueIdx
open Cert.Triplet (zero two eps margin negInf posInf clampRoot loss)

/-- The word `two` names is the one the payload carries. -/
theorem ofBits_two : (FloatOps.ofBits .f32 0x40000000#32 : Ideal .f32) = two := rfl

/-- A row of 512 entries laid out as a column and spread over 2048 columns reads, at `(p, q)`, the row's entry `p`. -/
theorem colOfRow_apply {α : Type} (x : S1x512.Idx → α) (p : Fin 512) (q : Fin 2048) :
    broadcastTo S512x2048 (transpose S512x1 [1, 0] x transposes_S1x512_p1_0_S512x1) broadcasts_S512x1_S512x2048 (ix2 p q)
      = x (ix2 (0 : Fin 1) p) :=
  (Cert.Keepdims.broadcastTo_a1_ab_apply _ broadcasts_S512x1_S512x2048 p q).trans
    (transpose_ix2_apply x transposes_S1x512_p1_0_S512x1 p (0 : Fin 1))

/-- A row of 2048 entries spread over 512 rows reads, at `(p, q)`, the row's entry `q`. -/
theorem rowOfRow_apply {α : Type} (x : S1x2048.Idx → α) (p : Fin 512) (q : Fin 2048) :
    broadcastTo S512x2048 x broadcasts_S1x2048_S512x2048 (ix2 p q) = x (ix2 (0 : Fin 1) q) :=
  broadcastTo_1b_ab_apply x broadcasts_S1x2048_S512x2048 p q

/-- The tile's inner products: entry `(p, q)` of the matrix product is the sum over the 128 features. -/
theorem gram_apply (L : FVec Ideal S512x128 .bf16) (R : FVec Ideal S2048x128 .bf16) (p : Fin 512) (q : Fin 2048) :
    FloatOps.matmul dot_S512x128_S2048x128_S512x2048_1_1_0_0_n_n none L R (constant S512x2048 .f32 0x00000000#32) (ix2 p q)
      = ∑ k : Fin 128, L (ix2 p k) * R (ix2 q k) :=
  Cert.MatmulRows.matmul_rows_rows dot_S512x128_S2048x128_S512x2048_1_1_0_0_n_n rfl rfl
    (fun _ _ => rfl) (fun _ _ => rfl) (fun _ _ => rfl) (fun _ _ => rfl) none L R p q

/-- The equality comparison of two words is the bit `1` exactly when they are equal. -/
theorem cmpi_eq_one_iff {w : ℕ} (x y : BitVec w) : IntOp.cmpi .eq x y = 1#1 ↔ x = y := by
  show BitVec.ofBool (x == y) = 1#1 ↔ x = y
  by_cases h : x = y
  · have hb : (x == y) = true := beq_iff_eq.mpr h
    rw [hb]; exact ⟨fun _ => h, fun _ => rfl⟩
  · have hb : (x == y) = false := beq_eq_false_iff_ne.mpr h
    rw [hb]; exact ⟨fun h0 => absurd h0 (by decide), fun hxy => absurd hxy h⟩

/-- The squared distance between query row `p` and key row `q` of the tile. -/
theorem pay6_apply (v8 : Vec Ideal S512x128 .bf16) (v11 : Vec Ideal S2048x128 .bf16) (v15 : Vec Ideal S1x512 .f32) (v19 : Vec Ideal S1x2048 .f32) (p : Fin 512) (q : Fin 2048) :
    k0_pay6 (F := Ideal) v8 v11 v15 v19 (ix2 p q) = ((v15 (ix2 (0 : Fin 1) p) + v19 (ix2 (0 : Fin 1) q)) - two * ∑ k : Fin 128, v8 (ix2 p k) * v11 (ix2 q k)) := by
  unfold k0_pay6
  simp only [subf_apply, addf_apply, mulf_apply, broadcast_apply, shapeCast_self, matmul]
  rw [colOfRow_apply, rowOfRow_apply, gram_apply, ofBits_two]

/-- The mask at `(p, q)` is set exactly when the two rows carry the same label. -/
theorem pay7_apply (v22 : Vec Ideal S1x512 .i32) (v26 : Vec Ideal S1x2048 .i32) (p : Fin 512) (q : Fin 2048) :
    k0_pay7 (F := Ideal) v22 v26 (ix2 p q) = 1#1 ↔ v22 (ix2 (0 : Fin 1) p) = v26 (ix2 (0 : Fin 1) q) := by
  unfold k0_pay7
  simp only [shapeCast_self]
  show IntOp.cmpi .eq _ _ = 1#1 ↔ _
  rw [colOfRow_apply, rowOfRow_apply]
  exact cmpi_eq_one_iff _ _

/-- The minimum of row p: the fold of min, from the accumulator's value, over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (Cert.MinReduce.multiReduction_minimumf_single src acc h hφ hacc (ix1 p)).trans ?_
  refine congrArg (fun f => (Finset.univ : Finset (Fin b)).fold min (Ideal.ofBits φ acc) f) ?_
  funext c
  exact congrArg src (Cert.MinReduce.lift_cols h p c)

/-- The masked entry for the maximum: the squared distance where the labels agree, -inf elsewhere. -/
theorem maskedMax_apply (v8 : Vec Ideal S512x128 .bf16) (v11 : Vec Ideal S2048x128 .bf16) (v15 : Vec Ideal S1x512 .f32) (v19 : Vec Ideal S1x2048 .f32) (v22 : Vec Ideal S1x512 .i32) (v26 : Vec Ideal S1x2048 .i32) (p : Fin 512) (q : Fin 2048) :
    select (k0_pay7 (F := Ideal) v22 v26) (k0_pay6 (F := Ideal) v8 v11 v15 v19) (broadcast S512x2048 (Scalar.ofBits .f32 0xFF800000#32 : Ideal .f32)) (ix2 p q)
      = if v22 (ix2 (0 : Fin 1) p) = v26 (ix2 (0 : Fin 1) q) then ((v15 (ix2 (0 : Fin 1) p) + v19 (ix2 (0 : Fin 1) q)) - two * ∑ k : Fin 128, v8 (ix2 p k) * v11 (ix2 q k)) else negInf := by
  rw [select_apply, broadcast_apply]
  by_cases h : v22 (ix2 (0 : Fin 1) p) = v26 (ix2 (0 : Fin 1) q)
  · rw [(pay7_apply v22 v26 p q).mpr h, select_one, if_pos h, pay6_apply]
  · rw [eq_zero_of_ne_one (mt (pay7_apply v22 v26 p q).mp h), select_zero, if_neg h]; rfl

/-- The masked entry for the minimum: +inf where the labels agree, the squared distance elsewhere. -/
theorem maskedMin_apply (v8 : Vec Ideal S512x128 .bf16) (v11 : Vec Ideal S2048x128 .bf16) (v15 : Vec Ideal S1x512 .f32) (v19 : Vec Ideal S1x2048 .f32) (v22 : Vec Ideal S1x512 .i32) (v26 : Vec Ideal S1x2048 .i32) (p : Fin 512) (q : Fin 2048) :
    select (k0_pay7 (F := Ideal) v22 v26) (k0_pay9 (F := Ideal)) (k0_pay6 (F := Ideal) v8 v11 v15 v19) (ix2 p q)
      = if v22 (ix2 (0 : Fin 1) p) = v26 (ix2 (0 : Fin 1) q) then posInf else ((v15 (ix2 (0 : Fin 1) p) + v19 (ix2 (0 : Fin 1) q)) - two * ∑ k : Fin 128, v8 (ix2 p k) * v11 (ix2 q k)) := by
  rw [select_apply]
  by_cases h : v22 (ix2 (0 : Fin 1) p) = v26 (ix2 (0 : Fin 1) q)
  · rw [(pay7_apply v22 v26 p q).mpr h, select_one, if_pos h]; rfl
  · rw [eq_zero_of_ne_one (mt (pay7_apply v22 v26 p q).mp h), select_zero, if_neg h, pay6_apply]

/-- The tile's masked maximum of row `p`. -/
theorem pay8_apply (v8 : Vec Ideal S512x128 .bf16) (v11 : Vec Ideal S2048x128 .bf16) (v15 : Vec Ideal S1x512 .f32) (v19 : Vec Ideal S1x2048 .f32) (v22 : Vec Ideal S1x512 .i32) (v26 : Vec Ideal S1x2048 .i32) (p : Fin 512) :
    k0_pay8 (F := Ideal) v8 v11 v15 v19 v22 v26 (ix2 p (0 : Fin 1))
      = (Finset.univ : Finset (Fin 2048)).fold max negInf
          (fun q => if v22 (ix2 (0 : Fin 1) p) = v26 (ix2 (0 : Fin 1) q) then ((v15 (ix2 (0 : Fin 1) p) + v19 (ix2 (0 : Fin 1) q)) - two * ∑ k : Fin 128, v8 (ix2 p k) * v11 (ix2 q k)) else negInf) := by
  unfold k0_pay8
  refine (Cert.Keepdims.shapeCast_a_a1_apply _ shapeCasts_S512_S512x1 p (0 : Fin 1)).trans ?_
  refine (Cert.RowReduce.rowMax_apply _ _ reduces_S512x2048_S512 _ _ p).trans ?_
  refine congrArg (fun f => (Finset.univ : Finset (Fin 2048)).fold max negInf f) ?_
  funext q
  exact maskedMax_apply v8 v11 v15 v19 v22 v26 p q

/-- The running minimum: the old contents against the tile's masked minimum of row `p`. -/
theorem pay2_apply (v8 : Vec Ideal S512x128 .bf16) (v11 : Vec Ideal S2048x128 .bf16) (v15 : Vec Ideal S1x512 .f32) (v19 : Vec Ideal S1x2048 .f32) (v22 : Vec Ideal S1x512 .i32) (v26 : Vec Ideal S1x2048 .i32) (v50 : Vec Ideal S512x1 .f32) (p : Fin 512) :
    k0_pay2 (F := Ideal) (k0_pay6 v8 v11 v15 v19) (k0_pay7 v22 v26) (k0_pay9 (F := Ideal)) v50 (ix2 p (0 : Fin 1))
      = min (v50 (ix2 p (0 : Fin 1))) ((Finset.univ : Finset (Fin 2048)).fold min posInf
          (fun q => if v22 (ix2 (0 : Fin 1) p) = v26 (ix2 (0 : Fin 1) q) then posInf else ((v15 (ix2 (0 : Fin 1) p) + v19 (ix2 (0 : Fin 1) q)) - two * ∑ k : Fin 128, v8 (ix2 p k) * v11 (ix2 q k)))) := by
  unfold k0_pay2
  rw [shapeCast_self, minimumf_apply]
  refine congrArg (fun m => min (v50 (ix2 p (0 : Fin 1))) m) ?_
  refine (Cert.Keepdims.shapeCast_a_a1_apply _ shapeCasts_S512_S512x1 p (0 : Fin 1)).trans ?_
  refine (rowMin_apply _ _ reduces_S512x2048_S512 _ _ p).trans ?_
  refine congrArg (fun f => (Finset.univ : Finset (Fin 2048)).fold min posInf f) ?_
  funext q
  exact maskedMin_apply v8 v11 v15 v19 v22 v26 p q

end Cert.KernelIdeal.PayloadAt

end
-- ==== Proof.PayloadPoint.lean ====
/-
  The body's pointwise steps read entry by entry over the extended reals: an accumulator takes the maximum with its
  old contents; the finalisation takes the clamped roots of the two accumulators, their difference plus the margin,
  and its positive part, laid out as a row; the accumulators start at -inf and +inf.
-/
import proofs.«173928_j86414741995528_2_alg».proof.Proof.Spec
import proofs.«173928_j86414741995528_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadPoint

open Cert.KernelIdeal Cert.KernelIdeal.Gen
open Idealize.ShloMosaic Idealize.ShloMosaic.ValueIdx
open Cert.Triplet (zero two eps margin negInf posInf clampRoot loss)

/-- The running maximum: the old contents against the tile's. -/
theorem pay1_apply (v40 : FVec Ideal S512x1 .f32) (v45 : Vec Ideal S512x1 .f32) (p : Fin 512) :
    k0_pay1 (F := Ideal) v40 v45 (ix2 p (0 : Fin 1)) = max (v45 (ix2 p (0 : Fin 1))) (v40 (ix2 p (0 : Fin 1))) := by
  -- a reshape to the same shape is the identity; the maximum of two arrays is taken entry by entry
  unfold k0_pay1
  rw [shapeCast_self]
  rfl

/-- The loss of row `p` from the two accumulators. -/
theorem pay3_apply (v58 v62 : Vec Ideal S512x1 .f32) (p : Fin 512) :
    k0_pay3 (F := Ideal) v58 v62 (ix2 (0 : Fin 1) p)
      = loss (clampRoot (v58 (ix2 p (0 : Fin 1)))) (clampRoot (v62 (ix2 p (0 : Fin 1)))) := by
  -- entry (0, p) of the transposed row is entry (p, 0) of the column ...
  unfold k0_pay3
  refine (transpose_apply _ _ _ (ix2 (0 : Fin 1) p) (ix2 p (0 : Fin 1)) ?_).trans ?_
  · intro b
    match b with
    | ⟨0, _⟩ => rfl
    | ⟨1, _⟩ => rfl
  -- ... and there every step acts entry by entry, the splat constants being the words the named constants denote
  · rfl

/-- The maximum's accumulator starts at -inf. -/
theorem pay4_apply (p : Fin 512) : k0_pay4 (F := Ideal) (ix2 p (0 : Fin 1)) = negInf := by
  -- a splat reads its scalar at every entry, and the scalar is the word of -inf
  unfold k0_pay4
  rw [shapeCast_self]
  rfl

/-- The minimum's accumulator starts at +inf. -/
theorem pay5_apply (p : Fin 512) : k0_pay5 (F := Ideal) (ix2 p (0 : Fin 1)) = posInf := by
  -- a splat reads its scalar at every entry, and the scalar is the word of +inf
  unfold k0_pay5
  rw [shapeCast_self]
  rfl

end Cert.KernelIdeal.PayloadPoint

end
-- ==== Proof.TileStep.lean ====
/-
  One grid point's update of the two running accumulators, read at a row.  With the loaded blocks identified with
  the points, the row of squared norms and the row of labels, the tile's masked maximum at query row `p` is the fold
  over the columns `2048 · J ≤ C < 2048 · (J + 1)` of the masked squared distance between rows `R = 512 · I + p` and
  `C`; folded into an accumulator that holds the maximum over the columns below `2048 · J` it gives the maximum over
  the columns below `2048 · (J + 1)`.  Likewise the minimum.
-/
import proofs.«173928_j86414741995528_2_alg».proof.Proof.Spec
import proofs.«173928_j86414741995528_2_alg».proof.Proof.Partial
import proofs.«173928_j86414741995528_2_alg».proof.Proof.Pieces
import proofs.«173928_j86414741995528_2_alg».proof.Proof.PayloadAt
import proofs.«173928_j86414741995528_2_alg».proof.Proof.PayloadPoint

noncomputable section

namespace Cert.Triplet

open Idealize.ShloMosaic Idealize.ShloMosaic.ValueIdx

/-- Row `R`'s entry at column `C` for the hardest positive: the squared distance where the labels agree, -inf elsewhere. -/
def gMax (x : Pts) (t : Lbl) (R C : Fin 8192) : EReal := if same t R C then d2 x R C else negInf

/-- Row `R`'s entry at column `C` for the hardest negative: +inf where the labels agree, the squared distance elsewhere. -/
def gMin (x : Pts) (t : Lbl) (R C : Fin 8192) : EReal := if same t R C then posInf else d2 x R C

/-- The hardest positive from the maximum over all columns. -/
theorem apK_eq (x : Pts) (t : Lbl) (R : Fin 8192) : apK x t R = clampRoot (partMax (gMax x t R) 8192) := by
  -- the maximum over the columns below 8192 is the maximum over all columns, of the same entries
  unfold apK
  rw [partMax_all]
  rfl

/-- The hardest negative from the minimum over all columns. -/
theorem anK_eq (x : Pts) (t : Lbl) (R : Fin 8192) : anK x t R = clampRoot (partMin (gMin x t R) 8192) := by
  -- the minimum over the columns below 8192 is the minimum over all columns, of the same entries
  unfold anK
  rw [partMin_all]
  rfl

end Cert.Triplet

namespace Cert.KernelIdeal.TileStep

open Cert.KernelIdeal Cert.KernelIdeal.Gen Cert.KernelIdeal.Pieces
open Idealize.ShloMosaic Idealize.ShloMosaic.ValueIdx
open Cert.Triplet

/-- The tile's inner product of query row `p` and key row `q` is the inner product of rows `R` and `c` of the points. -/
theorem tileGram_eq (i : grid0.Coords) (x0 : Vec Ideal S8192x128 .bf16) (x : Pts)
    (h0 : ∀ (r : Fin 8192) (k : Fin 128), x0 (ix2 r k) = x (ix2 r k))
    (p : Fin 512) (R : Fin 8192) (hR : R.val = 512 * (i 0).val + p.val)
    (q : Fin 2048) (c : Fin 8192) (hc : c.val = 2048 * (i 1).val + q.val) :
    ∑ k : Fin 128, ldQ i x0 (ix2 p k) * ldK i x0 (ix2 q k) = gram x R c := by
  unfold gram
  refine Finset.sum_congr rfl fun k _ => ?_
  rw [ldQ_apply i x0 p k R hR, ldK_apply i x0 q k c hc, h0, h0]

/-- The tile's masked entry for the maximum at `(p, q)` is row `R`'s entry at column `c = 2048 · J + q`. -/
theorem tileMax_eq (i : grid0.Coords) (x0 : Vec Ideal S8192x128 .bf16) (x1 : Vec Ideal S1x8192 .f32)
    (x2 : Vec Ideal S1x8192 .i32) (x : Pts) (tg : Lbl)
    (h0 : ∀ (r : Fin 8192) (k : Fin 128), x0 (ix2 r k) = x (ix2 r k))
    (h1 : ∀ r : Fin 8192, x1 (ix2 (0 : Fin 1) r) = sqn x r)
    (h2 : ∀ r : Fin 8192, x2 (ix2 (0 : Fin 1) r) = tg (ix1 r))
    (p : Fin 512) (R : Fin 8192) (hR : R.val = 512 * (i 0).val + p.val)
    (q : Fin 2048) (c : Fin 8192) (hc : c.val = 2048 * (i 1).val + q.val) :
    (if ldTgQ i x2 (ix2 (0 : Fin 1) p) = ldTgK i x2 (ix2 (0 : Fin 1) q)
      then ((ldSqQ i x1 (ix2 (0 : Fin 1) p) + ldSqK i x1 (ix2 (0 : Fin 1) q)) - two * ∑ k : Fin 128, ldQ i x0 (ix2 p k) * ldK i x0 (ix2 q k))
      else negInf) = gMax x tg R c := by
  rw [tileGram_eq i x0 x h0 p R hR q c hc, ldTgQ_apply i x2 p R hR, ldTgK_apply i x2 q c hc,
    ldSqQ_apply i x1 p R hR, ldSqK_apply i x1 q c hc, h2, h2, h1, h1]
  unfold gMax same d2
  by_cases h : tg (ix1 R) = tg (ix1 c)
  · exact (if_pos h).trans (if_pos h).symm
  · exact (if_neg h).trans (if_neg h).symm

/-- The tile's masked entry for the minimum at `(p, q)` is row `R`'s entry at column `c = 2048 · J + q`. -/
theorem tileMin_eq (i : grid0.Coords) (x0 : Vec Ideal S8192x128 .bf16) (x1 : Vec Ideal S1x8192 .f32)
    (x2 : Vec Ideal S1x8192 .i32) (x : Pts) (tg : Lbl)
    (h0 : ∀ (r : Fin 8192) (k : Fin 128), x0 (ix2 r k) = x (ix2 r k))
    (h1 : ∀ r : Fin 8192, x1 (ix2 (0 : Fin 1) r) = sqn x r)
    (h2 : ∀ r : Fin 8192, x2 (ix2 (0 : Fin 1) r) = tg (ix1 r))
    (p : Fin 512) (R : Fin 8192) (hR : R.val = 512 * (i 0).val + p.val)
    (q : Fin 2048) (c : Fin 8192) (hc : c.val = 2048 * (i 1).val + q.val) :
    (if ldTgQ i x2 (ix2 (0 : Fin 1) p) = ldTgK i x2 (ix2 (0 : Fin 1) q)
      then posInf
      else ((ldSqQ i x1 (ix2 (0 : Fin 1) p) + ldSqK i x1 (ix2 (0 : Fin 1) q)) - two * ∑ k : Fin 128, ldQ i x0 (ix2 p k) * ldK i x0 (ix2 q k)))
      = gMin x tg R c := by
  rw [tileGram_eq i x0 x h0 p R hR q c hc, ldTgQ_apply i x2 p R hR, ldTgK_apply i x2 q c hc,
    ldSqQ_apply i x1 p R hR, ldSqK_apply i x1 q c hc, h2, h2, h1, h1]
  unfold gMin same d2
  by_cases h : tg (ix1 R) = tg (ix1 c)
  · exact (if_pos h).trans (if_pos h).symm
  · exact (if_neg h).trans (if_neg h).symm

/-- The running maximum after a point whose column tile is `J`. -/
theorem stepMax_apply (i : grid0.Coords) (x0 : Vec Ideal S8192x128 .bf16) (x1 : Vec Ideal S1x8192 .f32)
    (x2 : Vec Ideal S1x8192 .i32) (old : Vec Ideal S512x1 .f32) (x : Pts) (tg : Lbl)
    (h0 : ∀ (r : Fin 8192) (k : Fin 128), x0 (ix2 r k) = x (ix2 r k))
    (h1 : ∀ r : Fin 8192, x1 (ix2 (0 : Fin 1) r) = sqn x r)
    (h2 : ∀ r : Fin 8192, x2 (ix2 (0 : Fin 1) r) = tg (ix1 r))
    (p : Fin 512) (R : Fin 8192) (hR : R.val = 512 * (i 0).val + p.val) (J : ℕ) (hJ : (i 1).val = J) (hJ4 : J < 4)
    (hold : old (ix2 p (0 : Fin 1)) = partMax (gMax x tg R) (2048 * J)) :
    stepMax i x0 x1 x2 old (ix2 p (0 : Fin 1)) = partMax (gMax x tg R) (2048 * (J + 1)) := by
  -- the new contents are the old ones against the tile's masked maximum of row p ...
  unfold stepMax
  refine (PayloadPoint.pay1_apply _ old p).trans ?_
  rw [hold, PayloadAt.pay8_apply]
  -- ... whose entries are row R's entries on the J-th stretch of 2048 columns
  refine (partMax_step (gMax x tg R) J hJ4 _ fun q c hc => ?_).symm
  exact tileMax_eq i x0 x1 x2 x tg h0 h1 h2 p R hR q c (by rw [hJ]; exact hc)

/-- The running minimum after a point whose column tile is `J`. -/
theorem stepMin_apply (i : grid0.Coords) (x0 : Vec Ideal S8192x128 .bf16) (x1 : Vec Ideal S1x8192 .f32)
    (x2 : Vec Ideal S1x8192 .i32) (old : Vec Ideal S512x1 .f32) (x : Pts) (tg : Lbl)
    (h0 : ∀ (r : Fin 8192) (k : Fin 128), x0 (ix2 r k) = x (ix2 r k))
    (h1 : ∀ r : Fin 8192, x1 (ix2 (0 : Fin 1) r) = sqn x r)
    (h2 : ∀ r : Fin 8192, x2 (ix2 (0 : Fin 1) r) = tg (ix1 r))
    (p : Fin 512) (R : Fin 8192) (hR : R.val = 512 * (i 0).val + p.val) (J : ℕ) (hJ : (i 1).val = J) (hJ4 : J < 4)
    (hold : old (ix2 p (0 : Fin 1)) = partMin (gMin x tg R) (2048 * J)) :
    stepMin i x0 x1 x2 old (ix2 p (0 : Fin 1)) = partMin (gMin x tg R) (2048 * (J + 1)) := by
  -- the new contents are the old ones against the tile's masked minimum of row p ...
  unfold stepMin
  refine (PayloadAt.pay2_apply _ _ _ _ _ _ old p).trans ?_
  rw [hold]
  -- ... whose entries are row R's entries on the J-th stretch of 2048 columns
  refine (partMin_step (gMin x tg R) J hJ4 _ fun q c hc => ?_).symm
  exact tileMin_eq i x0 x1 x2 x tg h0 h1 h2 p R hR q c (by rw [hJ]; exact hc)

end Cert.KernelIdeal.TileStep

end
-- ==== Proof.HostIn.lean ====
/-
  What the region finds in its three input arrays, and that every point's input block is the whole array.  The host
  rounds the points to bf16 (the identity on extended reals), squares them back in f32 and sums each row: the squared
  norms, reshaped to a row; the labels are reshaped to a row.  Each input window's block is the whole array at every
  grid point, so a block read at an index is the array read at that index.
-/
import proofs.«173928_j86414741995528_2_alg».proof.Proof.Spec
import proofs.«173928_j86414741995528_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostIn

open Cert.KernelIdeal Cert.KernelIdeal.Gen
open Idealize.ShloMosaic Idealize.ShloMosaic.TcCoe Idealize.ShloMosaic.ValueIdx
open Idealize.SL Idealize.SL.Sem

section Blocks

variable {F : FTy → Type} [FloatOps F]
variable (m : (ℓ : Loc nD τ sig) → Buf (Elt F) ℓ)

/-- Each input window's block index is zero on both axes at every grid point. -/
private theorem index_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- The points' block at any grid point is the whole array of points. -/
theorem iblk0_apply (c : Dev nD) (t : Fin cfg0.N) (r : Fin 8192) (k : Fin 128) :
    (iblk m c 0 t : S8192x128.Idx → Elt F .bf16) (ix2 r k) = (V m c main_v0 : S8192x128.Idx → Elt F .bf16) (ix2 r k) := by
  unfold iblk
  show V m c main_v0 (((cfg0.win 0).blk t).view.emb (ix2 r k)) = V m c main_v0 (ix2 r k)
  obtain ⟨⟨e0, e1⟩, -, -⟩ := index_zero t
  refine congrArg _ (funext fun a => Fin.ext ?_)
  match a with
  | ⟨0, _⟩ => show win0_0.index t (0 : Fin 2) * 8192 + 1 * r.val = r.val; rw [e0]; omega
  | ⟨1, _⟩ => show win0_0.index t (1 : Fin 2) * 128 + 1 * k.val = k.val; rw [e1]; omega

/-- The squared norms' block at any grid point is the whole row. -/
theorem iblk1_apply (c : Dev nD) (t : Fin cfg0.N) (r : Fin 8192) :
    (iblk m c 1 t : S1x8192.Idx → Elt F .f32) (ix2 (0 : Fin 1) r) = (V m c main_v4 : S1x8192.Idx → Elt F .f32) (ix2 (0 : Fin 1) r) := by
  unfold iblk
  show V m c main_v4 (((cfg0.win 1).blk t).view.emb (ix2 (0 : Fin 1) r)) = V m c main_v4 (ix2 (0 : Fin 1) r)
  obtain ⟨-, ⟨e0, e1⟩, -⟩ := index_zero t
  refine congrArg _ (funext fun a => Fin.ext ?_)
  match a with
  | ⟨0, _⟩ => show win0_1.index t (0 : Fin 2) * 1 + 1 * 0 = 0; rw [e0]
  | ⟨1, _⟩ => show win0_1.index t (1 : Fin 2) * 8192 + 1 * r.val = r.val; rw [e1]; omega

/-- The labels' block at any grid point is the whole row. -/
theorem iblk2_apply (c : Dev nD) (t : Fin cfg0.N) (r : Fin 8192) :
    (iblk m c 2 t : S1x8192.Idx → Elt F .i32) (ix2 (0 : Fin 1) r) = (V m c main_v5 : S1x8192.Idx → Elt F .i32) (ix2 (0 : Fin 1) r) := by
  unfold iblk
  show V m c main_v5 (((cfg0.win 2).blk t).view.emb (ix2 (0 : Fin 1) r)) = V m c main_v5 (ix2 (0 : Fin 1) r)
  obtain ⟨-, -, ⟨e0, e1⟩⟩ := index_zero t
  refine congrArg _ (funext fun a => Fin.ext ?_)
  match a with
  | ⟨0, _⟩ => show win0_2.index t (0 : Fin 2) * 1 + 1 * 0 = 0; rw [e0]
  | ⟨1, _⟩ => show win0_2.index t (1 : Fin 2) * 8192 + 1 * r.val = r.val; rw [e1]; omega

end Blocks

section Values

/-- Row `r` of the squares, summed along the row from the zero word and read through the reshape to one row, is the
    squared norm of row `r`: the two format changes are the identity on extended reals. -/
private theorem sqn_row (x : FVec Ideal S8192x128 .f32) (r : Fin 8192) :
    shapeCast S1x8192
        (Host.reduceAdd (F := Ideal)
          (mulf (extf .f32 (truncf .bf16 x bitsLt_bf16_f32) bitsLt_bf16_f32)
            (extf .f32 (truncf .bf16 x bitsLt_bf16_f32) bitsLt_bf16_f32))
          (constant (F := Ideal) S_ .f32 0x00000000#32) reducesTo_S8192x128_S8192_d1 h_S_)
        shapeCasts_S8192_S1x8192 (ix2 (0 : Fin 1) r)
      = Cert.Triplet.sqn x r := by
  rw [shapeCast_a_1a_apply]
  simp only [Host.reduceAdd, Ideal.hostReduceAdd_def]
  rw [Ideal.hostReduceAdd_single reducesTo_S8192x128_S8192_d1 (by decide)]
  unfold Cert.Triplet.sqn Cert.Triplet.zero
  refine congrArg₂ (· + ·) rfl (Finset.sum_congr rfl fun k _ => ?_)
  show x _ * x _ = x (ix2 r k) * x (ix2 r k)
  have hk : ∀ a b : S8192x128.Idx, a = b → x a * x a = x b * x b := fun a b h => by rw [h]
  exact hk _ _ (funext fun a => Fin.ext (by match a with | ⟨0, _⟩ => rfl | ⟨1, _⟩ => rfl))

variable (m : (ℓ : Loc nD τ sig) → Buf (Elt Ideal) ℓ)

/-- Over the extended reals the rounded points are the points. -/
theorem V_v0_apply (c : Dev nD) (r : Fin 8192) (k : Fin 128) :
    (V m c main_v0 : S8192x128.Idx → EReal) (ix2 r k) = (m ((c : Thread nD τ).loc main_arg0) : S8192x128.Idx → EReal) (ix2 r k) := by
  have e : (V m c main_v0 : S8192x128.Idx → EReal)
      = truncf (F := Ideal) .bf16 (m ((c : Thread nD τ).loc main_arg0) : FVec Ideal S8192x128 .f32) bitsLt_bf16_f32 := by
    dsimp only [Gen.V, Gen.V0]
    simp only [Gen.hostOps0, List.flatten_cons, List.flatten_nil, List.append_nil, List.cons_append, List.nil_append]
    after_results
  rw [e]
  rfl

/-- The row of squared norms. -/
theorem V_v4_apply (c : Dev nD) (r : Fin 8192) :
    (V m c main_v4 : S1x8192.Idx → EReal) (ix2 (0 : Fin 1) r) = Cert.Triplet.sqn (m ((c : Thread nD τ).loc main_arg0)) r := by
  have e : (V m c main_v4 : S1x8192.Idx → EReal)
      = shapeCast S1x8192
          (Host.reduceAdd (F := Ideal)
            (mulf (extf .f32 (truncf .bf16 (m ((c : Thread nD τ).loc main_arg0) : FVec Ideal S8192x128 .f32) bitsLt_bf16_f32) bitsLt_bf16_f32)
              (extf .f32 (truncf .bf16 (m ((c : Thread nD τ).loc main_arg0) : FVec Ideal S8192x128 .f32) bitsLt_bf16_f32) bitsLt_bf16_f32))
            (constant (F := Ideal) S_ .f32 0x00000000#32) reducesTo_S8192x128_S8192_d1 h_S_)
          shapeCasts_S8192_S1x8192 := by
    dsimp only [Gen.V, Gen.V0]
    simp only [Gen.hostOps0, List.flatten_cons, List.flatten_nil, List.append_nil, List.cons_append, List.nil_append]
    after_results
    rfl
  rw [e]
  exact sqn_row _ r

/-- The row of labels. -/
theorem V_v5_apply (c : Dev nD) (r : Fin 8192) :
    (V m c main_v5 : S1x8192.Idx → BitVec 32) (ix2 (0 : Fin 1) r) = (m ((c : Thread nD τ).loc main_arg1) : S8192.Idx → BitVec 32) (ix1 r) := by
  have e : (V m c main_v5 : S1x8192.Idx → BitVec 32)
      = shapeCast S1x8192 (m ((c : Thread nD τ).loc main_arg1) : S8192.Idx → BitVec 32) shapeCasts_S8192_S1x8192 := by
    dsimp only [Gen.V, Gen.V0]
    simp only [Gen.hostOps0, List.flatten_cons, List.flatten_nil, List.append_nil, List.cons_append, List.nil_append]
    after_results
    rfl
  rw [e]
  exact shapeCast_a_1a_apply _ _ _ _

end Values

end Cert.KernelIdeal.HostIn

end
-- ==== Proof.HostOut.lean ====
/-
  The host operations after the region: the row of losses is summed over both its axes from zero and divided by the
  number of rows, which is the mean of the rows' losses.
-/
import proofs.«173928_j86414741995528_2_alg».proof.Proof.Spec
import proofs.«173928_j86414741995528_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostOut

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- A sum over the index set of a `1 × n` array is the sum over its columns. -/
theorem sum_row {n : Nat} (f : (⟨2, ![1, n]⟩ : Shape).Idx → EReal) :
    ∑ j, f j = ∑ r : Fin n, f (ix2 (0 : Fin 1) r) := by
  rw [sum_idx2, Fin.sum_univ_one]

/-- The host's operations on an array `A` of shape `1 × 8192` whose column `r` holds `L r`: the sum over both axes
    from the zero word, divided by the word of the count, is the mean of `L`. -/
theorem host_tail (A : S1x8192.Idx → EReal) (L : Fin 8192 → EReal)
    (hA : ∀ r : Fin 8192, A (ix2 (0 : Fin 1) r) = L r) (i : S_.Idx) :
    Host.divf (F := Ideal) (Host.reduceAdd (F := Ideal) (φ := .f32) A (constant S_ .f32 0x00000000#32) reducesTo_S1x8192_S_d0_1 h_S_)
      (constant S_ .f32 0x46000000#32) i = Cert.Triplet.meanLoss L := by
  unfold Cert.Triplet.meanLoss Cert.Triplet.zero Cert.Triplet.count
  show Ideal.div (Ideal.hostReduceAdd reducesTo_S1x8192_S_d0_1 A (Ideal.ofBits .f32 0x00000000#32) i) (Ideal.ofBits .f32 0x46000000#32) = _
  rw [Ideal.hostReduceAdd_total reducesTo_S1x8192_S_d0_1 (fun b => b.elim0) A _ i, sum_row A]
  exact congrArg (fun s => Ideal.div (Ideal.ofBits .f32 0x00000000#32 + s) (Ideal.ofBits .f32 0x46000000#32))
    (Finset.sum_congr rfl fun r _ => hA r)

/-- If the output row holds `L r` at column `r` after the region, the program's result is the mean of `L`. -/
theorem tail_eq (c : Dev nD) (L : Fin 8192 → EReal)
    (hL : ∀ r : Fin 8192, ((dats m 0 c).arrAt 3 cfg0.N : S1x8192.Idx → EReal) (ix2 (0 : Fin 1) r) = L r) (i : S_.Idx) :
    (Pipeline.afterTail₀ cfgs (dats m) 0 (V0 m) [hostOps1] c main_v8 : S_.Idx → EReal) i = Cert.Triplet.meanLoss L := by
  unfold Pipeline.afterTail₀
  simp only [List.flatten_cons, List.flatten_nil, List.append_nil]
  generalize hAA : (fun w => (dats m 0 c).arrAt w (cfgs 0).N) = AA
  generalize V0 m c = VV
  after_results
  have hread : Pipeline.withArrays (cfgs 0).spec c VV AA (Proc.tc.devRef main_v6) = AA 3 :=
    Pipeline.withArrays_arr spec0 launch0.win.arr_inj c VV AA 3
  rw [hread]
  subst hAA
  exact host_tail _ L hL i

end Cert.KernelIdeal.HostOut

end
-- ==== Proof.OutBlock.lean ====
/-
  The geometry of the output window.  The output row has 8192 columns in 16 blocks of 512; the grid has 16 row tiles
  by 4 column tiles, point `t` being row tile `t / 4` and column tile `t % 4`; the block of row tile `I` is written
  back at the last column tile, point `4 · I + 3`.  So entry `p` of point `t`'s block is column `512 · (t / 4) + p` of
  the row, and every column lies in the block of a point that writes back.
-/
import proofs.«173928_j86414741995528_2_alg».proof.Proof.Gen.KernelIdeal.Points
import proofs.«173928_j86414741995528_2_alg».proof.Proof.Gen.KernelIdeal.Launch
import Idealize.ShloMosaic.Lib.Pipeline.Value
import Idealize.ShloMosaic.Lib.ValueIdx

noncomputable section

namespace Cert.KernelIdeal.OutBlock

open Cert.KernelIdeal Cert.KernelIdeal.Gen
open Idealize.ShloMosaic Idealize.ShloMosaic.ValueIdx

/-! ## The grid and the index map, decided over the 64 points -/

theorem coords_facts : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The output window's block index at point `t` is `(0, t / 4)`. -/
theorem idx_facts3 : ∀ t : Fin cfg0.N, win0_3.index t (0 : Fin 2) = 0 ∧ win0_3.index t (1 : Fin 2) = t.val / 4 :=
  (by decide +kernel : ∀ t : Fin grid0.N, win0_3.index t (0 : Fin 2) = 0 ∧ win0_3.index t (1 : Fin 2) = t.val / 4)

/-- An index of the output row is in point `t`'s block iff each coordinate is in the block's range on its axis. -/
theorem mem_blk3 (t : Fin cfg0.N) (i : S1x8192.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v6).slice (win0_3.rect t)).set ↔ _
  rw [View.set_slice_whole, Rect.mem_set_unit]
  exact Iff.rfl

/-- Point `t` is row tile `t / 4`, column tile `t % 4`. -/
theorem coords_eq (t : Fin cfg0.N) : (grid0.coords t 0).val = t.val / 4 ∧ (grid0.coords t 1).val = t.val % 4 := by
  exact coords_facts t

/-- Entry `p` of point `t`'s output block is column `512 · (t / 4) + p` of the output row. -/
theorem emb3 (t : Fin cfg0.N) (p : Fin 512) (R : Fin 8192) (hR : R.val = 512 * (t.val / 4) + p.val) :
    ((cfg0.win 3).blk t).view.emb (ix2 (0 : Fin 1) p) = ix2 (0 : Fin 1) R := by
  obtain ⟨e0, e1⟩ := idx_facts3 t
  funext a; apply Fin.ext
  match a with
  | ⟨0, _⟩ =>
    show win0_3.index t (0 : Fin 2) * 1 + 1 * (0 : Fin 1).val = (0 : Fin 1).val
    rw [e0]; rfl
  | ⟨1, _⟩ =>
    show win0_3.index t (1 : Fin 2) * 512 + 1 * p.val = R.val
    rw [e1, hR]; omega

/-- Every index of the output row lies in the block of a point that writes its block back. -/
theorem cover3 (i : S1x8192.Idx) :
    ∃ t : Fin cfg0.N, (cfg0.win 3).flush t = true ∧ i ∈ ((cfg0.win 3).blk t).view.set := by
  have hi0 : (i 0).val < 1 := (i 0).isLt
  have hi1 : (i 1).val < 8192 := (i 1).isLt
  have hN : cfg0.N = 64 := N_0
  obtain ⟨t, ht⟩ : ∃ t : Fin cfg0.N, t.val = 4 * ((i 1).val / 512) + 3 :=
    ⟨⟨4 * ((i 1).val / 512) + 3, by rw [hN]; omega⟩, rfl⟩
  obtain ⟨e0, e1⟩ := idx_facts3 t
  refine ⟨t, (flush0_3 t).mpr (by rw [ht]; omega), ?_⟩
  rw [mem_blk3]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 512 ≤ (i 1).val ∧ (i 1).val < win0_3.index t (1 : Fin 2) * 512 + 512
    rw [e1, ht]; omega

end Cert.KernelIdeal.OutBlock

end
-- ==== Proof.KValue.lean ====
/-
  The kernel program's result.  Over the grid the two accumulators of row tile `I` hold, after column tile `J`, the
  maximum and the minimum of the masked squared distances of rows `512 · I + p` over the columns below
  `2048 · (J + 1)`: by induction along the points, the first column tile starting from -inf / +inf and every other
  one from what the point before left.  At the last column tile the stored losses are those of the whole row's
  maximum and minimum, which is what the point writes back; the written-back blocks cover the output row; the host
  then takes the mean.
-/
import proofs.«173928_j86414741995528_2_alg».proof.Proof.Spec
import proofs.«173928_j86414741995528_2_alg».proof.Proof.Partial
import proofs.«173928_j86414741995528_2_alg».proof.Proof.TileStep
import proofs.«173928_j86414741995528_2_alg».proof.Proof.Pieces
import proofs.«173928_j86414741995528_2_alg».proof.Proof.PayloadPoint
import proofs.«173928_j86414741995528_2_alg».proof.Proof.HostIn
import proofs.«173928_j86414741995528_2_alg».proof.Proof.HostOut
import proofs.«173928_j86414741995528_2_alg».proof.Proof.OutBlock
import proofs.«173928_j86414741995528_2_alg».proof.Proof.Gen.KernelIdeal.Frame
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL Idealize.SL.Sem
open Cert.Triplet

variable (m : (ℓ : Loc nD τ sig) → Buf (Elt Ideal) ℓ) (ρ : Dev nD → PrngReg)

/-- The points and the labels the program is launched with. -/
abbrev pts (c : Dev nD) : Pts := m ((c : Thread nD τ).loc main_arg0)
abbrev lbl (c : Dev nD) : Lbl := m ((c : Thread nD τ).loc main_arg1)

/-! ## The input blocks are the points, their squared norms and the labels -/

theorem blk0 (c : Dev nD) (t : Fin cfg0.N) (r : Fin 8192) (k : Fin 128) :
    (iblk m c 0 t : S8192x128.Idx → EReal) (ix2 r k) = pts m c (ix2 r k) :=
  (HostIn.iblk0_apply m c t r k).trans (HostIn.V_v0_apply m c r k)

theorem blk1 (c : Dev nD) (t : Fin cfg0.N) (r : Fin 8192) :
    (iblk m c 1 t : S1x8192.Idx → EReal) (ix2 (0 : Fin 1) r) = sqn (pts m c) r :=
  (HostIn.iblk1_apply m c t r).trans (HostIn.V_v4_apply m c r)

theorem blk2 (c : Dev nD) (t : Fin cfg0.N) (r : Fin 8192) :
    (iblk m c 2 t : S1x8192.Idx → BitVec 32) (ix2 (0 : Fin 1) r) = lbl m c (ix1 r) :=
  (HostIn.iblk2_apply m c t r).trans (HostIn.V_v5_apply m c r)

/-! ## The accumulators along the grid -/

/-! One lemma per case of the body and per accumulator, then the induction along the points. -/

set_option maxHeartbeats 1000000 in
theorem accMax_first (c : Dev nD) (t : Fin cfg0.N) (h0 : t.val % 4 = 0) (h1 : ¬ t.val % 4 = 3) (p : Fin 512) (R : Fin 8192)
    (hR : R.val = 512 * (t.val / 4) + p.val)  :
    (outsAt0 m c t.val t.isLt).2.1 (ix2 p (0 : Fin 1)) = partMax (gMax (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_A m c t h0 h1]
  refine (congrFun (Pieces.sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p (0 : Fin 1))).trans ?_
  exact TileStep.stepMax_apply (grid0.coords t) (iblk m c 0 t) (iblk m c 1 t) (iblk m c 2 t) (k0_pay4 (F := Ideal)) (pts m c) (lbl m c)
    (blk0 m c t) (blk1 m c t) (blk2 m c t) p R hRt (t.val % 4) hJ hJ4 (by rw [h0, Nat.mul_zero, partMax_zero]; exact PayloadPoint.pay4_apply p)

set_option maxHeartbeats 1000000 in
theorem accMin_first (c : Dev nD) (t : Fin cfg0.N) (h0 : t.val % 4 = 0) (h1 : ¬ t.val % 4 = 3) (p : Fin 512) (R : Fin 8192)
    (hR : R.val = 512 * (t.val / 4) + p.val)  :
    (outsAt0 m c t.val t.isLt).2.2 (ix2 p (0 : Fin 1)) = partMin (gMin (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_A m c t h0 h1]
  refine (congrFun (Pieces.sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p (0 : Fin 1))).trans ?_
  exact TileStep.stepMin_apply (grid0.coords t) (iblk m c 0 t) (iblk m c 1 t) (iblk m c 2 t) (k0_pay5 (F := Ideal)) (pts m c) (lbl m c)
    (blk0 m c t) (blk1 m c t) (blk2 m c t) p R hRt (t.val % 4) hJ hJ4 (by rw [h0, Nat.mul_zero, partMin_zero]; exact PayloadPoint.pay5_apply p)

set_option maxHeartbeats 1000000 in
theorem accMax_middle (c : Dev nD) (t : Fin cfg0.N) (h0 : ¬ t.val % 4 = 0) (h1 : ¬ t.val % 4 = 3) (p : Fin 512) (R : Fin 8192)
    (hR : R.val = 512 * (t.val / 4) + p.val) (hprev : (outsAt0 m c (t.val - 1) (Nat.lt_of_le_of_lt (Nat.sub_le _ _) t.isLt)).2.1 (ix2 p (0 : Fin 1)) = partMax (gMax (pts m c) (lbl m c) R) (2048 * (t.val % 4))) :
    (outsAt0 m c t.val t.isLt).2.1 (ix2 p (0 : Fin 1)) = partMax (gMax (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_B m c t h0 h1]
  refine (congrFun (Pieces.sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  exact TileStep.stepMax_apply (grid0.coords t) (iblk m c 0 t) (iblk m c 1 t) (iblk m c 2 t) (outsAt0 m c (t.val - 1) (Nat.lt_of_le_of_lt (Nat.sub_le _ _) t.isLt)).2.1 (pts m c) (lbl m c)
    (blk0 m c t) (blk1 m c t) (blk2 m c t) p R hRt (t.val % 4) hJ hJ4 hprev

set_option maxHeartbeats 1000000 in
theorem accMin_middle (c : Dev nD) (t : Fin cfg0.N) (h0 : ¬ t.val % 4 = 0) (h1 : ¬ t.val % 4 = 3) (p : Fin 512) (R : Fin 8192)
    (hR : R.val = 512 * (t.val / 4) + p.val) (hprev : (outsAt0 m c (t.val - 1) (Nat.lt_of_le_of_lt (Nat.sub_le _ _) t.isLt)).2.2 (ix2 p (0 : Fin 1)) = partMin (gMin (pts m c) (lbl m c) R) (2048 * (t.val % 4))) :
    (outsAt0 m c t.val t.isLt).2.2 (ix2 p (0 : Fin 1)) = partMin (gMin (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_B m c t h0 h1]
  refine (congrFun (Pieces.sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  exact TileStep.stepMin_apply (grid0.coords t) (iblk m c 0 t) (iblk m c 1 t) (iblk m c 2 t) (outsAt0 m c (t.val - 1) (Nat.lt_of_le_of_lt (Nat.sub_le _ _) t.isLt)).2.2 (pts m c) (lbl m c)
    (blk0 m c t) (blk1 m c t) (blk2 m c t) p R hRt (t.val % 4) hJ hJ4 hprev

set_option maxHeartbeats 1000000 in
theorem accMax_last (c : Dev nD) (t : Fin cfg0.N) (h0 : ¬ t.val % 4 = 0) (h1 : t.val % 4 = 3) (p : Fin 512) (R : Fin 8192)
    (hR : R.val = 512 * (t.val / 4) + p.val) (hprev : (outsAt0 m c (t.val - 1) (Nat.lt_of_le_of_lt (Nat.sub_le _ _) t.isLt)).2.1 (ix2 p (0 : Fin 1)) = partMax (gMax (pts m c) (lbl m c) R) (2048 * (t.val % 4))) :
    (outsAt0 m c t.val t.isLt).2.1 (ix2 p (0 : Fin 1)) = partMax (gMax (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_C m c t h0 h1]
  refine (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  exact TileStep.stepMax_apply (grid0.coords t) (iblk m c 0 t) (iblk m c 1 t) (iblk m c 2 t) (outsAt0 m c (t.val - 1) (Nat.lt_of_le_of_lt (Nat.sub_le _ _) t.isLt)).2.1 (pts m c) (lbl m c)
    (blk0 m c t) (blk1 m c t) (blk2 m c t) p R hRt (t.val % 4) hJ hJ4 hprev

set_option maxHeartbeats 1000000 in
theorem accMin_last (c : Dev nD) (t : Fin cfg0.N) (h0 : ¬ t.val % 4 = 0) (h1 : t.val % 4 = 3) (p : Fin 512) (R : Fin 8192)
    (hR : R.val = 512 * (t.val / 4) + p.val) (hprev : (outsAt0 m c (t.val - 1) (Nat.lt_of_le_of_lt (Nat.sub_le _ _) t.isLt)).2.2 (ix2 p (0 : Fin 1)) = partMin (gMin (pts m c) (lbl m c) R) (2048 * (t.val % 4))) :
    (outsAt0 m c t.val t.isLt).2.2 (ix2 p (0 : Fin 1)) = partMin (gMin (pts m c) (lbl m c) R) (2048 * (t.val % 4 + 1)) := by
  obtain ⟨hI, hJ⟩ := OutBlock.coords_eq t
  have hRt : R.val = 512 * (grid0.coords t 0).val + p.val := by rw [hI]; exact hR
  have hJ4 : t.val % 4 < 4 := Nat.mod_lt _ (by decide)
  rw [outsAt0_C m c t h0 h1]
  refine (congrFun (Pieces.sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  exact TileStep.stepMin_apply (grid0.coords t) (iblk m c 0 t) (iblk m c 1 t) (iblk m c 2 t) (outsAt0 m c (t.val - 1) (Nat.lt_of_le_of_lt (Nat.sub_le _ _) t.isLt)).2.2 (pts m c) (lbl m c)
    (blk0 m c t) (blk1 m c t) (blk2 m c t) p R hRt (t.val % 4) hJ hJ4 hprev

/-- After point `t` the accumulators hold the maximum and the minimum over the columns seen so far. -/
theorem acc (c : Dev nD) : ∀ (n : ℕ) (t : Fin cfg0.N), t.val = n → ∀ (p : Fin 512) (R : Fin 8192), R.val = 512 * (t.val / 4) + p.val →
    (outsAt0 m c t.val t.isLt).2.1 (ix2 p (0 : Fin 1)) = partMax (gMax (pts m c) (lbl m c) R) (2048 * (t.val % 4 + 1))
    ∧ (outsAt0 m c t.val t.isLt).2.2 (ix2 p (0 : Fin 1)) = partMin (gMin (pts m c) (lbl m c) R) (2048 * (t.val % 4 + 1)) := by
  intro n
  induction n using Nat.strong_induction_on with
  | _ n ih =>
    intro t ht p R hR
    by_cases h0 : t.val % 4 = 0
    · have h1 : ¬ t.val % 4 = 3 := by omega
      exact ⟨accMax_first m c t h0 h1 p R hR, accMin_first m c t h0 h1 p R hR⟩
    · have hlt : t.val - 1 < cfg0.N := Nat.lt_of_le_of_lt (Nat.sub_le _ _) t.isLt
      have hm : (t.val - 1) % 4 + 1 = t.val % 4 := by omega
      have hprev := ih (t.val - 1) (by omega) ⟨t.val - 1, hlt⟩ rfl p R (by rw [hR]; show _ = 512 * ((t.val - 1) / 4) + p.val; omega)
      have hp1 : (outsAt0 m c (t.val - 1) (Nat.lt_of_le_of_lt (Nat.sub_le _ _) t.isLt)).2.1 (ix2 p (0 : Fin 1)) = partMax (gMax (pts m c) (lbl m c) R) (2048 * (t.val % 4)) := by
        rw [← hm]; exact hprev.1
      have hp2 : (outsAt0 m c (t.val - 1) (Nat.lt_of_le_of_lt (Nat.sub_le _ _) t.isLt)).2.2 (ix2 p (0 : Fin 1)) = partMin (gMin (pts m c) (lbl m c) R) (2048 * (t.val % 4)) := by
        rw [← hm]; exact hprev.2
      by_cases h1 : t.val % 4 = 3
      · exact ⟨accMax_last m c t h0 h1 p R hR hp1, accMin_last m c t h0 h1 p R hR hp2⟩
      · exact ⟨accMax_middle m c t h0 h1 p R hR hp1, accMin_middle m c t h0 h1 p R hR hp2⟩

/-! ## The output row -/

/-- Row `R`'s loss with the squared distances mined. -/
def lossK (c : Dev nD) (R : Fin 8192) : EReal :=
  loss (apK (pts m c) (lbl m c) R) (anK (pts m c) (lbl m c) R)

/-- The output row: column `R` holds row `R`'s loss. -/
def outRow (c : Dev nD) : S1x8192.Idx → EReal := fun j => lossK m c ⟨(j 1).val, (j 1).isLt⟩

set_option maxHeartbeats 1000000 in
/-- Entry `p` of what a last-column-tile point stores: the loss of row `512 · (t / 4) + p`. -/
theorem stored_last (c : Dev nD) (t : Fin cfg0.N) (h0 : ¬ t.val % 4 = 0) (h1 : t.val % 4 = 3) (p : Fin 512) (R : Fin 8192)
    (hR : R.val = 512 * (t.val / 4) + p.val) :
    (outsAt0 m c t.val t.isLt).1 (ix2 (0 : Fin 1) p) = lossK m c R := by
  obtain ⟨ha1, ha2⟩ := acc m c t.val t rfl p R hR
  have h8 : 2048 * (t.val % 4 + 1) = 8192 := by omega
  rw [h8] at ha1 ha2
  rw [outsAt0_C m c t h0 h1] at ha1 ha2 ⊢
  have e1 := (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).symm.trans ha1
  have e2 := (congrFun (Pieces.sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).symm.trans ha2
  refine (congrFun (Pieces.out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 (0 : Fin 1) p)).trans ?_
  refine (PayloadPoint.pay3_apply _ _ p).trans ?_
  rw [e1, e2]
  unfold lossK
  rw [apK_eq, anK_eq]

/-- What a point that writes back writes: its block of the output row. -/
theorem flushed_eq (c : Dev nD) (t : Fin cfg0.N) (hf : (cfg0.win 3).flush t = true) :
    (dats m 0 c).flushed 3 t = ((cfg0.win 3).blk t).view.read (Elt Ideal) (outRow m c) := by
  have h1 : t.val % 4 = 3 := (flush0_3 t).mp hf
  have h0 : ¬ t.val % 4 = 0 := by omega
  have hN : t.val < 64 := lt_of_lt_of_eq t.isLt (show cfg0.N = 64 from N_0)
  show (cfg0.win 3).cut (grid0.coords t) ((dats m 0 c).after 3 t) = _
  rw [after0_3]
  funext j
  obtain ⟨u, p, rfl⟩ : ∃ (u : Fin 1) (p : Fin 512), j = ix2 u p := ⟨j 0, j 1, eq_ix2 j⟩
  obtain rfl : u = 0 := Subsingleton.elim _ _
  show (outsAt0 m c t.val t.isLt).1 (ix2 (0 : Fin 1) p) = outRow m c (((cfg0.win 3).blk t).view.emb (ix2 (0 : Fin 1) p))
  rw [OutBlock.emb3 t p ⟨512 * (t.val / 4) + p.val, by omega⟩ rfl]
  exact stored_last m c t h0 h1 p _ rfl

/-- After the region the output row holds every row's loss. -/
theorem final (c : Dev nD) : (dats m 0 c).arrAt 3 cfg0.N = outRow m c :=
  (dats m 0 c).arrAt_eq_of_cover 3 (outRow m c) (fun t hf => flushed_eq m c t hf) (fun i => OutBlock.cover3 i)

/-! ## The run -/

/-- Every weakly fair execution of the kernel program ends with the mean loss, squared distances mined, in its
    result and its arguments unchanged. -/
theorem run : θ_run defs (onTc (τ := τ) (main (F := Ideal))) ⟨m, fun _ => 0, ρ⟩ (fun r => ∀ c : Dev nD,
      r.2.mem ((c.tc : Thread nD τ).loc main_v8) = (fun _ => resultK (pts m c) (lbl m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v8 (Pipeline.mem_restRefs_of main_v8 (by decide) (by decide))).trans
        (funext fun i => HostOut.tail_eq m c (lossK m c) (fun R => by rw [final]; rfl) i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The triplet margin loss with hard mining: a tiled kernel against its plain reference, equal over the extended reals.

  Both programs compute, for 8192 points in 128 dimensions with integer labels, the squared distances by the Gram
  expansion `d2 r c = (|x r|² + |x c|²) - 2 · ⟨x r, x c⟩`, each row's hardest positive (largest distance to a point of
  the same label) and hardest negative (smallest distance to a point of another label), the row's loss
  `max (ap - an + margin) 0`, and the mean over the rows.  The reference takes `sqrt (max d2 eps)` of every entry and
  then the masked row maximum and minimum.  The kernel walks the distance matrix in 512 × 2048 tiles, keeps the
  running maximum and minimum of the SQUARED distances in two accumulators along each row tile, and takes the
  clamped root of the two winners only, at the last column tile.  Rounding the points to bf16 for the matrix product
  is the identity on extended reals, the tiled folds of max and min regroup one maximum and one minimum
  (Partial, KValue), and the clamped root, being monotone, commutes with both — the masked-out entries of the
  maximum are harmless because every row carries its own label (Mining).  The reference's value is read operation
  by operation (RefSide); no precondition on the inputs is used.
-/
import proofs.«173928_j86414741995528_2_alg».proof.Defs
import proofs.«173928_j86414741995528_2_alg».proof.Proof.Gen.Kernel
import proofs.«173928_j86414741995528_2_alg».proof.Proof.Gen.Kernel.Frame
import proofs.«173928_j86414741995528_2_alg».proof.Proof.Gen.KernelIdeal
import proofs.«173928_j86414741995528_2_alg».proof.Proof.Gen.KernelIdeal.Frame
import proofs.«173928_j86414741995528_2_alg».proof.Proof.Gen.ReferenceIdeal
import proofs.«173928_j86414741995528_2_alg».proof.Proof.Gen.ReferenceIdeal.Run
import proofs.«173928_j86414741995528_2_alg».proof.Proof.Gen.ReferenceIdeal.Read
import proofs.«173928_j86414741995528_2_alg».proof.Proof.Gen.Pre_finite_inputs
import proofs.«173928_j86414741995528_2_alg».proof.Proof.Mining
import proofs.«173928_j86414741995528_2_alg».proof.Proof.RefSide
import proofs.«173928_j86414741995528_2_alg».proof.Proof.KValue

noncomputable section

namespace Cert.Proof

open Idealize.ShloMosaic Idealize.SL.Sem

/-- The word-level kernel program runs and leaves its arguments unchanged. -/
theorem frame_kernel [hKernel : Cert.Kernel.Facts] [hPre : Cert.Pre_finite_inputs.Facts] : Cert.frame_Kernel :=
  fun m ρ _ => Cert.Kernel.Gen.frame m ρ

/-- The idealized kernel program runs and leaves its arguments unchanged. -/
theorem frame_kernelIdeal [hKernelIdeal : Cert.KernelIdeal.Facts] [hPre : Cert.Pre_finite_inputs.Facts] : Cert.frame_KernelIdeal :=
  fun m ρ _ => Cert.KernelIdeal.Gen.frame m ρ

/-- The reference runs and leaves its arguments unchanged: its run with the result dropped. -/
theorem frame_reference [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the points and the labels both programs end with the same mean loss: the kernel's
    with the squared distances mined, the reference's with the distances mined, which are one extended real. -/
theorem algebraic [hKernelIdeal : Cert.KernelIdeal.Facts] [hReferenceIdeal : Cert.ReferenceIdeal.Facts]
    [hPre : Cert.Pre_finite_inputs.Facts] : Cert.algebraic_KernelIdeal_ReferenceIdeal := by
  intro m ρ m' ρ' _ hagree
  refine ⟨fun c => fun _ => Cert.Triplet.resultK (Cert.KernelIdeal.KValue.pts m c) (Cert.KernelIdeal.KValue.lbl m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  funext i
  rw [Cert.ReferenceIdeal.RefValue.result_eq, (hagree c).1, (hagree c).2]
  exact (Cert.Triplet.resultK_eq_resultR _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
